-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x512 : Shape := ⟨3, ![2048, 16, 512]⟩
abbrev S2048x16x256 : Shape := ⟨3, ![2048, 16, 256]⟩
abbrev S_ : Shape := ⟨0, ![]⟩

class Facts : Prop where
  bcast_S_S2048x16x512 : S_.BroadcastsInDim S2048x16x512 (![] : Fin 0 → Fin S2048x16x512.rank)
  reducesTo_S2048x16x512_S_d0_1_2 : S2048x16x512.ReducesTo [0, 1, 2] S_
  h_S_ : 0 < S_.numel
  bcast_S_S2048x16x256 : S_.BroadcastsInDim S2048x16x256 (![] : Fin 0 → Fin S2048x16x256.rank)
  reducesTo_S2048x16x256_S_d0_1_2 : S2048x16x256.ReducesTo [0, 1, 2] S_

variable [Facts]

def fn {F : FTy → Type} [FloatOps F] (main_arg0 : FVec F S2048x16x512 .f32) (main_arg1 : FVec F S2048x16x256 .f32) : IVec S_ 1 :=
  let main_v0 : FVec F S2048x16x512 .f32 := Host.absf main_arg0
  let main_cst : FVec F S_ .f32 := constant S_ .f32 0x7F800000#32
  let main_v1 : FVec F S2048x16x512 .f32 := broadcastInDim S2048x16x512 ![] bcast_S_S2048x16x512 main_cst
  let main_v2 : IVec S2048x16x512 1 := cmpf .olt main_v0 main_v1
  let main_c : IVec S_ 1 := constantI S_ 1 1#1
  let main_v3 : IVec S_ 1 := (fun x v => Host.reduce IntOp.andi x v reducesTo_S2048x16x512_S_d0_1_2 h_S_) main_v2 main_c
  let main_v4 : FVec F S2048x16x256 .f32 := Host.absf main_arg1
  let main_cst_0 : FVec F S_ .f32 := constant S_ .f32 0x7F800000#32
  let main_v5 : FVec F S2048x16x256 .f32 := broadcastInDim S2048x16x256 ![] bcast_S_S2048x16x256 main_cst_0
  let main_v6 : IVec S2048x16x256 1 := cmpf .olt main_v4 main_v5
  let main_c_1 : IVec S_ 1 := constantI S_ 1 1#1
  let main_v7 : IVec S_ 1 := (fun x v => Host.reduce IntOp.andi x v reducesTo_S2048x16x256_S_d0_1_2 h_S_) main_v6 main_c_1
  let main_v8 : IVec S_ 1 := andi main_v3 main_v7
  main_v8
-- ==== Kernel.lean ====
abbrev S2048x16x512 : Shape := ⟨3, ![2048, 16, 512]⟩
abbrev S2048x16x256 : Shape := ⟨3, ![2048, 16, 256]⟩
abbrev S128x16x512 : Shape := ⟨3, ![128, 16, 512]⟩
abbrev S256x16x256 : Shape := ⟨3, ![256, 16, 256]⟩
abbrev S16x256 : Shape := ⟨2, ![16, 256]⟩
abbrev S16x256x256 : Shape := ⟨3, ![16, 256, 256]⟩
abbrev S128x16x256 : Shape := ⟨3, ![128, 16, 256]⟩
abbrev S16x128x256 : Shape := ⟨3, ![16, 128, 256]⟩
abbrev S16x256x128 : Shape := ⟨3, ![16, 256, 128]⟩
abbrev S16x256x1 : Shape := ⟨3, ![16, 256, 1]⟩

abbrev nBuf : Space → Nat
  | .hbm => 3
  | .vmem => 10
  | .smem => 0
  | _ => 0

abbrev bufTy : (tb : Table) → Fin (tcTables nBuf tb) → BufTy
  | .hbm, ⟨0, _⟩ => ⟨S2048x16x512, .f32⟩
  | .hbm, ⟨1, _⟩ => ⟨S2048x16x256, .f32⟩
  | .hbm, ⟨2, _⟩ => ⟨S2048x16x256, .f32⟩
  | .local _ .vmem, ⟨0, _⟩ => ⟨S128x16x512, .f32⟩
  | .local _ .vmem, ⟨1, _⟩ => ⟨S128x16x512, .f32⟩
  | .local _ .vmem, ⟨2, _⟩ => ⟨S256x16x256, .f32⟩
  | .local _ .vmem, ⟨3, _⟩ => ⟨S256x16x256, .f32⟩
  | .local _ .vmem, ⟨4, _⟩ => ⟨S256x16x256, .f32⟩
  | .local _ .vmem, ⟨5, _⟩ => ⟨S256x16x256, .f32⟩
  | .local _ .vmem, ⟨6, _⟩ => ⟨S16x256, .f32⟩
  | .local _ .vmem, ⟨7, _⟩ => ⟨S16x256, .f32⟩
  | .local _ .vmem, ⟨8, _⟩ => ⟨S16x256x256, .f32⟩
  | .local _ .vmem, ⟨9, _⟩ => ⟨S16x256x256, .bf16⟩
  | _, _ => ⟨S2048x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_23 : BitVec 32 := 0#32
  let v44 : BitVec 1 := Scalar.cmpi .ne v43 c0_i32_23
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  inb_S256x16x256_S256x16x256_0_0_0 : ∀ a, (![0, 0, 0] : Fin 3 → Nat) a + S256x16x256.size a ≤ S256x16x256.size a
  h_S256x16x256 : 0 < S256x16x256.numel
  transposes_S256x16x256_p1_0_2_S16x256x256 : S256x16x256.Transposes [1, 0, 2] S16x256x256
  bitsLt_bf16_f32 : FTy.bits .bf16 < FTy.bits .f32
  packedbf16_S16x256x256_S16x256x256_0_0_0 : (Rect.unit (s := S16x256x256) ![0, 0, 0] S16x256x256.size inb_S16x256x256_S16x256x256_0_0_0).PackedRows (EltTy.packing .bf16)
  inb_S128x16x512_S128x16x512_0_0_0 : ∀ a, (![0, 0, 0] : Fin 3 → Nat) a + S128x16x512.size a ≤ S128x16x512.size a
  h_S128x16x512 : 0 < S128x16x512.numel
  slices_S128x16x512_o0_0_0_S128x16x256 : S128x16x512.Slices ![0, 0, 0] S128x16x256
  slices_S128x16x512_o0_0_256_S128x16x256 : S128x16x512.Slices ![0, 0, 256] S128x16x256
  transposes_S128x16x256_p1_0_2_S16x128x256 : S128x16x256.Transposes [1, 0, 2] S16x128x256
  shapeCasts_S16x256_S16x256x1 : S16x256.ShapeCasts S16x256x1
  reduces_S16x256x128_S16x256 : S16x256x128.Reduces [2] S16x256
  broadcasts_S16x256x1_S16x256x128 : S16x256x1.Broadcasts S16x256x128
  shapeCasts_S16x256x1_S16x256 : S16x256x1.ShapeCasts S16x256
  broadcasts_S16x256x1_S16x256x256 : S16x256x1.Broadcasts S16x256x256
  transposes_S16x256x256_p1_0_2_S256x16x256 : S16x256x256.Transposes [1, 0, 2] S256x16x256
  dot_S16x256x256_S16x128x256_S16x256x128_2_2_1_1_0_0_wf : DotDims.WF S16x256x256 S16x128x256 S16x256x128 [2] [2] [1] [1] [0] [0]
  dot_S16x256x128_S16x128x256_S16x256x256_2_1_1_2_0_0_wf : DotDims.WF S16x256x128 S16x128x256 S16x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x512.size a ≤ S2048x16x512.size a
  hwx0_0 : ∀ i : grid0.Coords, EltTy.bits .f32 = 32 ∨ (Rect.block (s := S2048x16x512) S128x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x256.size a ≤ S2048x16x256.size a
  hwx0_1 : ∀ i : grid0.Coords, EltTy.bits .f32 = 32 ∨ (Rect.block (s := S2048x16x256) S256x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x256.size a ≤ S2048x16x256.size a
  hwx0_2 : ∀ i : grid0.Coords, EltTy.bits .f32 = 32 ∨ (Rect.block (s := S2048x16x256) S256x16x256.size (cc0_transform_2 i) (hinb0_2 i)).WholeWords (EltTy.packing .f32)

variable [Facts₀]

def dot_S16x256x256_S16x128x256_S16x256x128_2_2_1_1_0_0 : DotDims S16x256x256 S16x128x256 S16x256x128 where
  lhsContracting := [2]
  rhsContracting := [2]
  lhsNonContracting := [1]
  rhsNonContracting := [1]
  lhsBatch := [0]
  rhsBatch := [0]
  wf := dot_S16x256x256_S16x128x256_S16x256x128_2_2_1_1_0_0_wf
def dot_S16x256x128_S16x128x256_S16x256x256_2_1_1_2_0_0 : DotDims S16x256x128 S16x128x256 S16x256x256 where
  lhsContracting := [2]
  rhsContracting := [1]
  lhsNonContracting := [1]
  rhsNonContracting := [2]
  lhsBatch := [0]
  rhsBatch := [0]
  wf := dot_S16x256x128_S16x128x256_S16x256x256_2_1_1_2_0_0_wf

abbrev win0_0 : Pipeline.Window sig grid0 :=
  Pipeline.Window.ofSpec (Memref.whole main_arg0) S128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x16x512 : Shape := ⟨3, ![2048, 16, 512]⟩
abbrev S2048x16x256 : Shape := ⟨3, ![2048, 16, 256]⟩
abbrev S2048x16x2x256 : Shape := ⟨4, ![2048, 16, 2, 256]⟩
abbrev S_ : Shape := ⟨0, ![]⟩
abbrev S16x2048x256 : Shape := ⟨3, ![16, 2048, 256]⟩
abbrev S16x2048x2048 : Shape := ⟨3, ![16, 2048, 2048]⟩
abbrev S16x2048 : Shape := ⟨2, ![16, 2048]⟩
abbrev S16x1x2048 : Shape := ⟨3, ![16, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x16x512, .f32⟩
  | .hbm, ⟨1, _⟩ => ⟨S2048x16x256, .f32⟩
  | .hbm, ⟨2, _⟩ => ⟨S2048x16x2x256, .f32⟩
  | .hbm, ⟨3, _⟩ => ⟨S_, .f32⟩
  | .hbm, ⟨4, _⟩ => ⟨S2048x16x256, .f32⟩
  | .hbm, ⟨5, _⟩ => ⟨S16x2048x256, .f32⟩
  | .hbm, ⟨6, _⟩ => ⟨S16x2048x256, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x1x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x1x2048, .f32⟩
  | .hbm, ⟨20, _⟩ => ⟨S16x2048x2048, .f32⟩
  | .hbm, ⟨21, _⟩ => ⟨S16x2048x2048, .f32⟩
  | .hbm, ⟨22, _⟩ => ⟨S16x2048x256, .f32⟩
  | .hbm, ⟨23, _⟩ => ⟨S2048x16x256, .f32⟩
  | _, _ => ⟨S2048x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S2048x16x512_S2048x16x2x256 : S2048x16x512.ShapeCasts S2048x16x2x256
  reducesTo_S2048x16x2x256_S2048x16x256_d2 : S2048x16x2x256.ReducesTo [2] S2048x16x256
  h_S_ : 0 < S_.numel
  transposes_S2048x16x256_S16x2048x256_1_0_2 : S2048x16x256.Transposes [1, 0, 2] S16x2048x256
  reducesTo_S16x2048x2048_S16x2048_d1 : S16x2048x2048.ReducesTo [1] S16x2048
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  transposes_S16x2048x256_S2048x16x256_1_0_2 : S16x2048x256.Transposes [1, 0, 2] S2048x16x256
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_1_1_2_2_0_0_wf : DotDims.WF S16x2048x2048 S16x2048x256 S16x2048x256 [1] [1] [2] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_1_1_2_2_0_0 : DotDims S16x2048x2048 S16x2048x256 S16x2048x256 where
  lhsContracting := [1]
  rhsContracting := [1]
  lhsNonContracting := [2]
  rhsNonContracting := [2]
  lhsBatch := [0]
  rhsBatch := [0]
  wf := dot_S16x2048x2048_S16x2048x256_S16x2048x256_1_1_2_2_0_0_wf

class Facts : Prop extends Facts₀ where

variable [Facts]
-- ==== Proof.LibRank3.lean ====
/-
  Rank-3 arrays read at an index written by coordinates: the layout operations, last-axis reductions and batched
  product that a computation on `[a, b, c]` arrays is made of. The extents are variables, so each lemma applies at
  any sizes by unification; nothing here mentions a program.

  • `transpose_102_apply`: an `[a, b, c]` array with its first two axes exchanged reads, at `(p, q, r)`, the operand
    at `(q, p, r)`.
  • `slice_last_apply`: the unit-stride slice of an `[a, b, c]` array that keeps the first two axes whole and takes
    `k` entries of the last axis from offset `o` reads, at `(p, q, r)`, the operand at `(p, q, o + r)`.
  • `squeeze_ab1_apply`: an `[a, b, 1]` array cast to `[a, b]` reads, at `(p, q)`, the operand at `(p, q, 0)`: the two
    indices have the same row-major position.
  • `sumLast_at`: the sum-reduction of an `[a, b, k]` array of extended reals over its last axis, with an accumulator
    that reads as `0`, is at `(p, q)` the sum `Σ_j src (p, q, j)` over the `k` values of the last coordinate.
  • `maxLast_at`: the max-reduction over the last axis is at `(p, q)` the fold of `max` over the `k` entries
    `src (p, q, j)`, started from the accumulator's value.
  • `matmul_nn_zero_at`: a batched matrix product `[B, M, K] · [B, K, N] → [B, M, N]` into the zero accumulator reads,
    at `(b, m, n)`, `Σ_j lhs (b, m, j) · rhs (b, j, n)`. The dimension numbers enter only through six facts about where
    they send an output index and a contraction index.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-- An `[a, b, c]` array with its first two axes exchanged reads, at `(p, q, r)`, the operand at `(q, p, r)`. -/
theorem transpose_102_apply {a b c : ℕ} (x : (⟨3, ![a, b, c]⟩ : Shape).Idx → α)
    (h : (⟨3, ![a, b, c]⟩ : Shape).Transposes [1, 0, 2] ⟨3, ![b, a, c]⟩) (p : Fin b) (q : Fin a) (r : Fin c) :
    transpose ⟨3, ![b, a, c]⟩ [1, 0, 2] x h (ix3 p q r) = x (ix3 q p r) := by
  refine transpose_apply [1, 0, 2] x h (ix3 p q r) (ix3 q p r) fun ax => ?_
  match ax with
  | ⟨0, _⟩ => rfl
  | ⟨1, _⟩ => rfl
  | ⟨2, _⟩ => rfl

/-- The slice of an `[a, b, c]` array keeping the first two axes and taking `k` entries of the last axis from offset
    `o` reads, at `(p, q, r)`, the operand at `(p, q, o + r)`. -/
theorem slice_last_apply {a b c k : ℕ} (o : ℕ) (x : (⟨3, ![a, b, c]⟩ : Shape).Idx → α)
    (h : (⟨3, ![a, b, c]⟩ : Shape).Slices ![0, 0, o] ⟨3, ![a, b, k]⟩) (p : Fin a) (q : Fin b) (r : Fin k)
    (hr : o + r.val < c) :
    extractStridedSlice ⟨3, ![a, b, k]⟩ ![0, 0, o] x h (ix3 p q r) = x (ix3 p q ⟨o + r.val, hr⟩) := by
  refine extractStridedSlice_apply ![0, 0, o] x h (ix3 p q r) (ix3 p q ⟨o + r.val, hr⟩) fun ax => ?_
  match ax with
  | ⟨0, _⟩ => show p.val = 0 + p.val; omega
  | ⟨1, _⟩ => show q.val = 0 + q.val; omega
  | ⟨2, _⟩ => rfl

/-- An `[a, b, 1]` array cast to `[a, b]` reads, at `(p, q)`, the operand at `(p, q, 0)`. -/
theorem squeeze_ab1_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- Over a reduction of the last axis, the source index above `(p, q)` with last coordinate `j` is `(p, q, j)`. -/
theorem lift_last {a b k : ℕ} (h : (⟨3, ![a, b, k]⟩ : Shape).Reduces [2] ⟨2, ![a, b]⟩) (p : Fin a) (q : Fin b)
    (j : Fin k) : h.lift (ix2 p q) j = ix3 p q j :=
  funext fun c => Fin.ext (by
    match c with
    | ⟨0, _⟩ => rfl
    | ⟨1, _⟩ => rfl
    | ⟨2, _⟩ => rfl)

/-- The sum-reduction of an `[a, b, k]` array over its last axis, from an accumulator that reads as `0`, is at
    `(p, q)` the sum `Σ_j src (p, q, j)`. -/
theorem sumLast_at {a b k : ℕ} {φ : FTy} (src : FVec Ideal ⟨3, ![a, b, k]⟩ φ) (acc : BitVec φ.bits)
    (h : (⟨3, ![a, b, k]⟩ : Shape).Reduces [2] ⟨2, ![a, b]⟩) (hφ : FKind.Formats φ)
    (hacc : acc = FKind.add.neutral φ hφ) (p : Fin a) (q : Fin b) :
    multiReduction (F := Ideal) .add [2] ⟨2, ![a, b]⟩ src acc h hφ hacc (ix2 p q) = ∑ j : Fin k, src (ix3 p q j) := by
  rw [Ideal.multiReduction_add_single]
  show ∑ j : Fin k, src (h.lift (ix2 p q) j) = _
  exact Finset.sum_congr rfl fun j _ => by rw [lift_last]

/-- The max-reduction of an `[a, b, k]` array over its last axis is at `(p, q)` the fold of `max`, from the
    accumulator's value, over the entries `src (p, q, j)`. -/
theorem maxLast_at {a b k : ℕ} {φ : FTy} (src : FVec Ideal ⟨3, ![a, b, k]⟩ φ) (acc : BitVec φ.bits)
    (h : (⟨3, ![a, b, k]⟩ : Shape).Reduces [2] ⟨2, ![a, b]⟩) (hφ : FKind.Formats φ)
    (hacc : acc = FKind.maximumf.neutral φ hφ) (p : Fin a) (q : Fin b) :
    multiReduction (F := Ideal) .maximumf [2] ⟨2, ![a, b]⟩ src acc h hφ hacc (ix2 p q)
      = (Finset.univ : Finset (Fin k)).fold max (FloatOps.ofBits (F := Ideal) φ acc) (fun j => src (ix3 p q j)) := by
  rw [Ideal.multiReduction_maximumf_single]
  show (Finset.univ : Finset (Fin k)).fold max (FloatOps.ofBits (F := Ideal) φ acc)
      (fun j => src (h.lift (ix2 p q) j)) = _
  have e : (fun j : Fin k => src (h.lift (ix2 p q) j)) = fun j => src (ix3 p q j) :=
    funext fun j => by rw [lift_last]
  exact congrArg (fun f => Finset.fold max (FloatOps.ofBits (F := Ideal) φ acc) f (Finset.univ : Finset (Fin k))) e

/-- `[B, M, K] · [B, K, N]` into the zero splat, at `(b, m, n)`, is `Σ_j lhs (b, m, j) · rhs (b, j, n)`. -/
theorem matmul_nn_zero_at {B M N K : ℕ} {φ₁ φ₂ : FTy}
    (D : DotDims ⟨3, ![B, M, K]⟩ ⟨3, ![B, K, N]⟩ ⟨3, ![B, M, N]⟩) (prec : Option ContractPrecision)
    (hr : D.contr.rank = 1) (hs : D.contr.size ⟨0, by omega⟩ = K)
    (hl0 : ∀ (i : (⟨3, ![B, M, N]⟩ : Shape).Idx) (q : D.contr.Idx), (D.lhsIdx i q 0).val = (i 0).val)
    (hl1 : ∀ (i : (⟨3, ![B, M, N]⟩ : Shape).Idx) (q : D.contr.Idx), (D.lhsIdx i q 1).val = (i 1).val)
    (hl2 : ∀ (i : (⟨3, ![B, M, N]⟩ : Shape).Idx) (q : D.contr.Idx), (D.lhsIdx i q 2).val = (q ⟨0, by omega⟩).val)
    (hr0 : ∀ (i : (⟨3, ![B, M, N]⟩ : Shape).Idx) (q : D.contr.Idx), (D.rhsIdx i q 0).val = (i 0).val)
    (hr1 : ∀ (i : (⟨3, ![B, M, N]⟩ : Shape).Idx) (q : D.contr.Idx), (D.rhsIdx i q 1).val = (q ⟨0, by omega⟩).val)
    (hr2 : ∀ (i : (⟨3, ![B, M, N]⟩ : Shape).Idx) (q : D.contr.Idx), (D.rhsIdx i q 2).val = (i 2).val)
    (lhs : FVec Ideal ⟨3, ![B, M, K]⟩ φ₁) (rhs : FVec Ideal ⟨3, ![B, K, N]⟩ φ₂) (b : Fin B) (m : Fin M) (n : Fin N) :
    FloatOps.matmul D prec lhs rhs (constant ⟨3, ![B, M, N]⟩ .f32 0x00000000#32) (ix3 b m n)
      = ∑ j : Fin K, lhs (ix3 b m j) * rhs (ix3 b j n) := by
  rw [Ideal.matmul_constant_zero_apply, ← Equiv.sum_comp (contrEquiv1 D K hr hs).symm]
  refine Finset.sum_congr rfl fun j _ => ?_
  have hj := contrEquiv1_symm_val D K hr hs j
  have el : D.lhsIdx (ix3 b m n) ((contrEquiv1 D K hr hs).symm j) = ix3 b m j := funext fun c => Fin.ext (by
    match c with
    | ⟨0, _⟩ => exact hl0 _ _
    | ⟨1, _⟩ => exact hl1 _ _
    | ⟨2, _⟩ => exact (hl2 _ _).trans hj)
  have er : D.rhsIdx (ix3 b m n) ((contrEquiv1 D K hr hs).symm j) = ix3 b j n := funext fun c => Fin.ext (by
    match c with
    | ⟨0, _⟩ => exact hr0 _ _
    | ⟨1, _⟩ => exact (hr1 _ _).trans hj
    | ⟨2, _⟩ => exact hr2 _ _)
  rw [el, er]

end Cert.LibRank3

end
-- ==== Proof.LibTrailingUnit.lean ====
/-
  A trailing unit axis on a rank-2 array, read at an index given by coordinates: the two layout operations of a
  reduction over the LAST axis that keeps the axis (a `sum(..., axis=-1, keepdims=True)` and the broadcast that
  spreads its result back over that axis).

  • `shapeCast_ab_ab1_apply`: an `[a, b]` array cast to `[a, b, 1]` reads, at `(p, q, u)`, the operand at `(p, q)`:
    the two indices have the same row-major position, since the new axis has one coordinate, `0`.
  • `broadcastTo_ab1_abc_apply`: an `[a, b, 1]` array broadcast to `[a, b, c]` reads, at `(p, q, r)`, the operand at
    `(p, q, 0)`: the first two axes are kept (or, where an extent is one, have only the coordinate `0`) and the unit
    axis is read at its one coordinate.
  The extents are variables, so the lemmas apply at any sizes by unification.
-/
import Idealize.ShloMosaic.Lib.Pipeline.Value
import Idealize.ShloMosaic.Lib.ValueIdx

namespace Cert.LibTrailingUnit

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.LibTrailingUnit
-- ==== Proof.LibBatchedMatmul.lean ====
/-
  A batched matrix product with both operands contracted on their last axis, into a zero accumulator, read at an
  index written by coordinates.

  For dimension numbers with one batch axis in front, `[B, M, K] · [B, N, K] → [B, M, N]` (each batch entry is
  `lhs · rhsᵀ`), the product accumulated into the zero splat reads, at `(b, m, n)`, `Σ_k lhs (b, m, k) · rhs (b, n, k)`
  over the `K` values of the contracted coordinate: the accumulator contributes `0`, and the sum over the one-axis
  contraction index is re-indexed by that axis's coordinate. The dimension numbers enter only through six facts about
  where they send an output index and a contraction index, which hold by unfolding for any record of this form.
  General: nothing here mentions a program.
-/
import Idealize.ShloMosaic.PureOps.Ideal.Laws
import Idealize.ShloMosaic.Lib.ValueIdx

noncomputable section

namespace Cert.LibBatchedMatmul

open Idealize.ShloMosaic Idealize.ShloMosaic.ValueIdx

/-- `[B, M, K] · [B, N, K]` into the zero splat, at `(b, m, n)`, is `Σ_k lhs (b, m, k) · rhs (b, n, k)`. -/
theorem matmul_nt_zero_at {B M N K : ℕ} {φ₁ φ₂ : FTy}
    (D : DotDims ⟨3, ![B, M, K]⟩ ⟨3, ![B, N, K]⟩ ⟨3, ![B, M, N]⟩) (prec : Option ContractPrecision)
    (hr : D.contr.rank = 1) (hs : D.contr.size ⟨0, by omega⟩ = K)
    (hl0 : ∀ (i : (⟨3, ![B, M, N]⟩ : Shape).Idx) (q : D.contr.Idx), (D.lhsIdx i q 0).val = (i 0).val)
    (hl1 : ∀ (i : (⟨3, ![B, M, N]⟩ : Shape).Idx) (q : D.contr.Idx), (D.lhsIdx i q 1).val = (i 1).val)
    (hl2 : ∀ (i : (⟨3, ![B, M, N]⟩ : Shape).Idx) (q : D.contr.Idx), (D.lhsIdx i q 2).val = (q ⟨0, by omega⟩).val)
    (hr0 : ∀ (i : (⟨3, ![B, M, N]⟩ : Shape).Idx) (q : D.contr.Idx), (D.rhsIdx i q 0).val = (i 0).val)
    (hr1 : ∀ (i : (⟨3, ![B, M, N]⟩ : Shape).Idx) (q : D.contr.Idx), (D.rhsIdx i q 1).val = (i 2).val)
    (hr2 : ∀ (i : (⟨3, ![B, M, N]⟩ : Shape).Idx) (q : D.contr.Idx), (D.rhsIdx i q 2).val = (q ⟨0, by omega⟩).val)
    (lhs : FVec Ideal ⟨3, ![B, M, K]⟩ φ₁) (rhs : FVec Ideal ⟨3, ![B, N, K]⟩ φ₂) (b : Fin B) (m : Fin M) (n : Fin N) :
    FloatOps.matmul D prec lhs rhs (constant ⟨3, ![B, M, N]⟩ .f32 0x00000000#32) (ix3 b m n)
      = ∑ k : Fin K, lhs (ix3 b m k) * rhs (ix3 b n k) := by
  rw [Ideal.matmul_constant_zero_apply, ← Equiv.sum_comp (contrEquiv1 D K hr hs).symm]
  refine Finset.sum_congr rfl fun k _ => ?_
  have hk := contrEquiv1_symm_val D K hr hs k
  have el : D.lhsIdx (ix3 b m n) ((contrEquiv1 D K hr hs).symm k) = ix3 b m k := funext fun a => Fin.ext (by
    match a with
    | ⟨0, _⟩ => exact hl0 _ _
    | ⟨1, _⟩ => exact hl1 _ _
    | ⟨2, _⟩ => exact (hl2 _ _).trans hk)
  have er : D.rhsIdx (ix3 b m n) ((contrEquiv1 D K hr hs).symm k) = ix3 b n k := funext fun a => Fin.ext (by
    match a with
    | ⟨0, _⟩ => exact hr0 _ _
    | ⟨1, _⟩ => exact hr1 _ _
    | ⟨2, _⟩ => exact (hr2 _ _).trans hk)
  rw [el, er]

end Cert.LibBatchedMatmul

end
-- ==== Proof.Step.lean ====
/-
  The kernel body's pure values, read at an index on the extended reals.

  Per key block the body computes, for batch entry b, query row q, key k of the block and feature h:
    enc (b, k, h)   = e (k, b, h) + e (k, b, 256 + h)                    (the two directions summed, batch-major)
    score (b, q, k) = Σ_h dec (b, q, h) · enc (b, k, h)
    m' (b, q)       = max (m (b, q), max_k score (b, q, k))              (the block maximum folded from −∞)
    a (b, q)        = exp (m (b, q) − m' (b, q)),   p (b, q, k) = exp (score (b, q, k) − m' (b, q))
    l' (b, q)       = a · l (b, q) + Σ_k p (b, q, k)
    acc' (b, q, h)  = a · acc (b, q, h) + Σ_k p (b, q, k) · enc (b, k, h)
  and at the last block the output block (q, b, h) = acc' (b, q, h) / l' (b, q). A change of float format is the
  identity on the extended reals, so the narrowings in the body do not appear. Each lemma states one of these lines
  for the body's named value, over the named values it is built from.
-/
import proofs.«114297_j5428838662814_2_alg».proof.Proof.Gen.KernelIdeal.Skeleton
import proofs.«114297_j5428838662814_2_alg».proof.Proof.LibRank3
import proofs.«114297_j5428838662814_2_alg».proof.Proof.LibTrailingUnit
import proofs.«114297_j5428838662814_2_alg».proof.Proof.LibBatchedMatmul
import Idealize.ShloMosaic.Lib.Pipeline.Value
import Idealize.ShloMosaic.Lib.ValueIdx
import Idealize.ShloMosaic.PureOps.Ideal.Laws

noncomputable section

namespace Cert.KernelIdeal.Step

open Cert.KernelIdeal Cert.KernelIdeal.Gen Idealize.ShloMosaic Idealize.ShloMosaic.ValueIdx

/-! ## Where the two products' dimension numbers send an output index and a contraction index -/

theorem qk_l0 (i : S16x256x128.Idx) (q : dot_S16x256x256_S16x128x256_S16x256x128_2_2_1_1_0_0.contr.Idx) :
    (dot_S16x256x256_S16x128x256_S16x256x128_2_2_1_1_0_0.lhsIdx i q 0).val = (i 0).val := by
  unfold DotDims.lhsIdx
  rw [dif_pos (show (0 : Fin S16x256x256.rank) ∈ dot_S16x256x256_S16x128x256_S16x256x128_2_2_1_1_0_0.lhsBatch by decide)]
  rfl
theorem qk_l1 (i : S16x256x128.Idx) (q : dot_S16x256x256_S16x128x256_S16x256x128_2_2_1_1_0_0.contr.Idx) :
    (dot_S16x256x256_S16x128x256_S16x256x128_2_2_1_1_0_0.lhsIdx i q 1).val = (i 1).val := by
  unfold DotDims.lhsIdx
  rw [dif_neg (show ¬(1 : Fin S16x256x256.rank) ∈ dot_S16x256x256_S16x128x256_S16x256x128_2_2_1_1_0_0.lhsBatch by decide), dif_pos (show (1 : Fin S16x256x256.rank) ∈ dot_S16x256x256_S16x128x256_S16x256x128_2_2_1_1_0_0.lhsNonContracting by decide)]
  rfl
theorem qk_l2 (i : S16x256x128.Idx) (q : dot_S16x256x256_S16x128x256_S16x256x128_2_2_1_1_0_0.contr.Idx) :
    (dot_S16x256x256_S16x128x256_S16x256x128_2_2_1_1_0_0.lhsIdx i q 2).val = (q ⟨0, by decide⟩).val :=
  dot_S16x256x256_S16x128x256_S16x256x128_2_2_1_1_0_0.lhsIdx_val_of_single rfl i q
theorem qk_r0 (i : S16x256x128.Idx) (q : dot_S16x256x256_S16x128x256_S16x256x128_2_2_1_1_0_0.contr.Idx) :
    (dot_S16x256x256_S16x128x256_S16x256x128_2_2_1_1_0_0.rhsIdx i q 0).val = (i 0).val := by
  unfold DotDims.rhsIdx
  rw [dif_pos (show (0 : Fin S16x128x256.rank) ∈ dot_S16x256x256_S16x128x256_S16x256x128_2_2_1_1_0_0.rhsBatch by decide)]
  rfl
theorem qk_r1 (i : S16x256x128.Idx) (q : dot_S16x256x256_S16x128x256_S16x256x128_2_2_1_1_0_0.contr.Idx) :
    (dot_S16x256x256_S16x128x256_S16x256x128_2_2_1_1_0_0.rhsIdx i q 1).val = (i 2).val := by
  unfold DotDims.rhsIdx
  rw [dif_neg (show ¬(1 : Fin S16x128x256.rank) ∈ dot_S16x256x256_S16x128x256_S16x256x128_2_2_1_1_0_0.rhsBatch by decide), dif_pos (show (1 : Fin S16x128x256.rank) ∈ dot_S16x256x256_S16x128x256_S16x256x128_2_2_1_1_0_0.rhsNonContracting by decide)]
  rfl
theorem qk_r2 (i : S16x256x128.Idx) (q : dot_S16x256x256_S16x128x256_S16x256x128_2_2_1_1_0_0.contr.Idx) :
    (dot_S16x256x256_S16x128x256_S16x256x128_2_2_1_1_0_0.rhsIdx i q 2).val = (q ⟨0, by decide⟩).val :=
  dot_S16x256x256_S16x128x256_S16x256x128_2_2_1_1_0_0.rhsIdx_val_of_single rfl i q

theorem pv_l0 (i : S16x256x256.Idx) (q : dot_S16x256x128_S16x128x256_S16x256x256_2_1_1_2_0_0.contr.Idx) :
    (dot_S16x256x128_S16x128x256_S16x256x256_2_1_1_2_0_0.lhsIdx i q 0).val = (i 0).val := by
  unfold DotDims.lhsIdx
  rw [dif_pos (show (0 : Fin S16x256x128.rank) ∈ dot_S16x256x128_S16x128x256_S16x256x256_2_1_1_2_0_0.lhsBatch by decide)]
  rfl
theorem pv_l1 (i : S16x256x256.Idx) (q : dot_S16x256x128_S16x128x256_S16x256x256_2_1_1_2_0_0.contr.Idx) :
    (dot_S16x256x128_S16x128x256_S16x256x256_2_1_1_2_0_0.lhsIdx i q 1).val = (i 1).val := by
  unfold DotDims.lhsIdx
  rw [dif_neg (show ¬(1 : Fin S16x256x128.rank) ∈ dot_S16x256x128_S16x128x256_S16x256x256_2_1_1_2_0_0.lhsBatch by decide), dif_pos (show (1 : Fin S16x256x128.rank) ∈ dot_S16x256x128_S16x128x256_S16x256x256_2_1_1_2_0_0.lhsNonContracting by decide)]
  rfl
theorem pv_l2 (i : S16x256x256.Idx) (q : dot_S16x256x128_S16x128x256_S16x256x256_2_1_1_2_0_0.contr.Idx) :
    (dot_S16x256x128_S16x128x256_S16x256x256_2_1_1_2_0_0.lhsIdx i q 2).val = (q ⟨0, by decide⟩).val :=
  dot_S16x256x128_S16x128x256_S16x256x256_2_1_1_2_0_0.lhsIdx_val_of_single rfl i q
theorem pv_r0 (i : S16x256x256.Idx) (q : dot_S16x256x128_S16x128x256_S16x256x256_2_1_1_2_0_0.contr.Idx) :
    (dot_S16x256x128_S16x128x256_S16x256x256_2_1_1_2_0_0.rhsIdx i q 0).val = (i 0).val := by
  unfold DotDims.rhsIdx
  rw [dif_pos (show (0 : Fin S16x128x256.rank) ∈ dot_S16x256x128_S16x128x256_S16x256x256_2_1_1_2_0_0.rhsBatch by decide)]
  rfl
theorem pv_r1 (i : S16x256x256.Idx) (q : dot_S16x256x128_S16x128x256_S16x256x256_2_1_1_2_0_0.contr.Idx) :
    (dot_S16x256x128_S16x128x256_S16x256x256_2_1_1_2_0_0.rhsIdx i q 1).val = (q ⟨0, by decide⟩).val :=
  dot_S16x256x128_S16x128x256_S16x256x256_2_1_1_2_0_0.rhsIdx_val_of_single rfl i q
theorem pv_r2 (i : S16x256x256.Idx) (q : dot_S16x256x128_S16x128x256_S16x256x256_2_1_1_2_0_0.contr.Idx) :
    (dot_S16x256x128_S16x128x256_S16x256x256_2_1_1_2_0_0.rhsIdx i q 2).val = (i 2).val := by
  unfold DotDims.rhsIdx
  rw [dif_neg (show ¬(2 : Fin S16x128x256.rank) ∈ dot_S16x256x128_S16x128x256_S16x256x256_2_1_1_2_0_0.rhsBatch by decide), dif_pos (show (2 : Fin S16x128x256.rank) ∈ dot_S16x256x128_S16x128x256_S16x256x256_2_1_1_2_0_0.rhsNonContracting by decide)]
  rfl

variable (x0 : Vec Ideal S128x16x512 .f32) (x1 : Vec Ideal S256x16x256 .f32) (dq : Vec Ideal S16x256x256 .bf16)
  (mv lv : Vec Ideal S16x256 .f32) (av : Vec Ideal S16x256x256 .f32)

/-- The encoder block, batch-major: the two directions summed. -/
theorem pay8_at (b : Fin 16) (k : Fin 128) (h : Fin 256) :
    k0_pay8 (F := Ideal) x0 (ix3 b k h)
      = x0 (ix3 k b (⟨0 + h.val, by have := h.isLt; omega⟩ : Fin 512)) + x0 (ix3 k b (⟨256 + h.val, by have := h.isLt; omega⟩ : Fin 512)) := by
  unfold k0_pay8
  rw [truncf_apply, LibRank3.transpose_102_apply, addf_apply, LibRank3.slice_last_apply 0, LibRank3.slice_last_apply 256]

/-- The scores of the block's 128 keys against the cached queries. -/
theorem pay9_at (b : Fin 16) (q : Fin 256) (k : Fin 128) :
    k0_pay9 (F := Ideal) x0 dq (ix3 b q k) = ∑ h : Fin 256, dq (ix3 b q h) * k0_pay8 (F := Ideal) x0 (ix3 b k h) := by
  unfold k0_pay9
  exact LibBatchedMatmul.matmul_nt_zero_at dot_S16x256x256_S16x128x256_S16x256x128_2_2_1_1_0_0 none rfl rfl qk_l0 qk_l1 qk_l2 qk_r0 qk_r1 qk_r2 dq (k0_pay8 (F := Ideal) x0) b q k

/-- The new running maximum: the old one against the maximum of the block's scores, folded from the word of −∞. -/
theorem pay11_at (b : Fin 16) (q : Fin 256) (u : Fin 1) :
    k0_pay11 (F := Ideal) x0 dq mv (ix3 b q u)
      = max (mv (ix2 b q)) ((Finset.univ : Finset (Fin 128)).fold max (FloatOps.ofBits (F := Ideal) .f32 0xFF800000#32) (fun k => k0_pay9 (F := Ideal) x0 dq (ix3 b q k))) := by
  unfold k0_pay11 k0_pay10
  rw [maximumf_apply, LibTrailingUnit.shapeCast_ab_ab1_apply, LibTrailingUnit.shapeCast_ab_ab1_apply]
  exact congrArg (max (mv (ix2 b q))) (LibRank3.maxLast_at (k0_pay9 (F := Ideal) x0 dq) 0xFF800000#32 reduces_S16x256x128_S16x256 (.inl rfl) rfl b q)

/-- The rescaling factor exp (old maximum − new maximum). -/
theorem pay12_at (b : Fin 16) (q : Fin 256) (u : Fin 1) :
    k0_pay12 (F := Ideal) x0 dq mv (ix3 b q u) = Ideal.exp (mv (ix2 b q) - k0_pay11 (F := Ideal) x0 dq mv (ix3 b q u)) := by
  unfold k0_pay12 k0_pay10
  show Ideal.exp (subf (shapeCast S16x256x1 mv shapeCasts_S16x256_S16x256x1) (k0_pay11 (F := Ideal) x0 dq mv) (ix3 b q u)) = _
  rw [subf_apply, LibTrailingUnit.shapeCast_ab_ab1_apply]

/-- The block's exponentials exp (score − new maximum). -/
theorem pay13_at (b : Fin 16) (q : Fin 256) (k : Fin 128) :
    k0_pay13 (F := Ideal) x0 dq mv (ix3 b q k)
      = Ideal.exp (k0_pay9 (F := Ideal) x0 dq (ix3 b q k) - k0_pay11 (F := Ideal) x0 dq mv (ix3 b q (0 : Fin 1))) := by
  unfold k0_pay13
  show Ideal.exp (subf (k0_pay9 (F := Ideal) x0 dq) (broadcastTo S16x256x128 (k0_pay11 (F := Ideal) x0 dq mv) broadcasts_S16x256x1_S16x256x128) (ix3 b q k)) = _
  rw [subf_apply, LibTrailingUnit.broadcastTo_ab1_abc_apply]

/-- The new running denominator. -/
theorem pay14_at (b : Fin 16) (q : Fin 256) :
    k0_pay14 (F := Ideal) x0 dq mv lv (ix2 b q)
      = k0_pay12 (F := Ideal) x0 dq mv (ix3 b q (0 : Fin 1)) * lv (ix2 b q) + ∑ k : Fin 128, k0_pay13 (F := Ideal) x0 dq mv (ix3 b q k) := by
  unfold k0_pay14
  rw [shapeCast_self, addf_apply, mulf_apply, LibRank3.squeeze_ab1_apply]
  exact congrArg (_ + ·) (LibRank3.sumLast_at (k0_pay13 (F := Ideal) x0 dq mv) 0x00000000#32 reduces_S16x256x128_S16x256 (.inl rfl) rfl b q)

/-- The new running numerator. -/
theorem pay15_at (b : Fin 16) (q : Fin 256) (h : Fin 256) :
    k0_pay15 (F := Ideal) x0 dq mv av (ix3 b q h)
      = k0_pay12 (F := Ideal) x0 dq mv (ix3 b q (0 : Fin 1)) * av (ix3 b q h)
        + ∑ k : Fin 128, k0_pay13 (F := Ideal) x0 dq mv (ix3 b q k) * k0_pay8 (F := Ideal) x0 (ix3 b k h) := by
  unfold k0_pay15
  rw [addf_apply, mulf_apply, LibTrailingUnit.broadcastTo_ab1_abc_apply]
  exact congrArg (_ + ·) (LibRank3.matmul_nn_zero_at dot_S16x256x128_S16x128x256_S16x256x256_2_1_1_2_0_0 none rfl rfl pv_l0 pv_l1 pv_l2 pv_r0 pv_r1 pv_r2
    (truncf .bf16 (k0_pay13 (F := Ideal) x0 dq mv) bitsLt_bf16_f32) (k0_pay8 (F := Ideal) x0) b q h)

/-- A same-shape cast stores the numerator as it is. -/
theorem pay1_eq (v : FVec Ideal S16x256x256 .f32) : k0_pay1 (F := Ideal) v = v := by
  unfold k0_pay1
  exact shapeCast_self _ _

/-- The maximum is stored with its unit axis dropped. -/
theorem pay2_at (v : FVec Ideal S16x256x1 .f32) (b : Fin 16) (q : Fin 256) :
    k0_pay2 (F := Ideal) v (ix2 b q) = v (ix3 b q (0 : Fin 1)) := by
  unfold k0_pay2
  rw [shapeCast_self, LibRank3.squeeze_ab1_apply]

/-- The output block, target-major: numerator over denominator. -/
theorem pay3_at (lw : Vec Ideal S16x256 .f32) (aw : Vec Ideal S16x256x256 .f32) (q : Fin 256) (b : Fin 16) (h : Fin 256) :
    k0_pay3 (F := Ideal) lw aw (ix3 q b h) = Ideal.div (aw (ix3 b q h)) (lw (ix2 b q)) := by
  unfold k0_pay3
  rw [LibRank3.transpose_102_apply, divf_apply, LibTrailingUnit.broadcastTo_ab1_abc_apply, LibTrailingUnit.shapeCast_ab_ab1_apply]

/-- The reset of the running maximum: the word of −∞ everywhere. -/
theorem pay4_at (b : Fin 16) (q : Fin 256) : k0_pay4 (F := Ideal) (ix2 b q) = Ideal.ofBits .f32 0xFF800000#32 := by
  unfold k0_pay4
  rw [shapeCast_self]
  rfl

/-- The reset of the running denominator: the zero word everywhere. -/
theorem pay5_at (b : Fin 16) (q : Fin 256) : k0_pay5 (F := Ideal) (ix2 b q) = Ideal.ofBits .f32 0x00000000#32 := by
  unfold k0_pay5
  rw [shapeCast_self]
  rfl

/-- The reset of the running numerator. -/
theorem pay6_at (b : Fin 16) (q : Fin 256) (h : Fin 256) : k0_pay6 (F := Ideal) (ix3 b q h) = Ideal.ofBits .f32 0x00000000#32 := by
  unfold k0_pay6
  rw [shapeCast_self]
  rfl

/-- The cached decoder block, batch-major. -/
theorem pay7_at (b : Fin 16) (q : Fin 256) (h : Fin 256) : k0_pay7 (F := Ideal) x1 (ix3 b q h) = x1 (ix3 q b h) := by
  unfold k0_pay7
  rw [shapeCast_self, truncf_apply, LibRank3.transpose_102_apply]

/-- The word 0xFF800000 is −∞. -/
theorem ofBits_ninf : Ideal.ofBits .f32 0xFF800000#32 = (⊥ : EReal) := by
  simp [Ideal.ofBits, Ideal.ieee]

end Cert.KernelIdeal.Step
end
-- ==== Proof.LibRowMaxReal.lean ====
/-
  The maximum of a nonempty finite family of real numbers, folded from `-∞`, is a real number.

  A softmax that shifts by the row maximum computes that maximum as a fold of `max` whose starting value is `-∞`. On the
  extended reals `-∞` is the bottom element, so it is absorbed by the first entry; and the maximum of two reals is a real.
  Hence over a nonempty index set whose entries are all real the fold is a real number `M` — which is all a log-sum-exp
  shift needs of it (the shift law holds for every real `M`; that `M` is the largest entry is not used). Stated for
  `max` and for the ideal instance's `maximumf`, which is `max`.
-/
import Idealize.ShloMosaic.PureOps.Ideal
import Idealize.ShloMosaic.PureOps.Ideal.Laws

noncomputable section

namespace Idealize.ShloMosaic.Ideal

/-- Folding `max` from `⊥` over a nonempty finite set of reals (read as extended reals) gives a real. -/
theorem fold_max_bot_coe_real {ι : Type*} (s : Finset ι) (hs : s.Nonempty) (f : ι → ℝ) :
    ∃ M : ℝ, s.fold max (⊥ : EReal) (fun j => ((f j : ℝ) : EReal)) = ((M : ℝ) : EReal) := by
  induction hs using Finset.Nonempty.cons_induction with
  | singleton a => exact ⟨f a, by rw [Finset.fold_singleton, max_bot_right]⟩
  | cons a s ha _ ih =>
    obtain ⟨M, hM⟩ := ih
    exact ⟨max (f a) M, by rw [Finset.fold_cons, hM]; exact (EReal.coe_strictMono.monotone.map_max).symm⟩

/-- The same for the ideal instance's `maximumf` at any float format: it is `max` on the extended reals. -/
theorem fold_maximumf_bot_coe_real {φ : FTy} {ι : Type*} (s : Finset ι) (hs : s.Nonempty) (f : ι → ℝ) :
    ∃ M : ℝ, s.fold (FloatOps.maximumf (F := Ideal) (φ := φ)) (⊥ : EReal) (fun j => ((f j : ℝ) : EReal)) = ((M : ℝ) : EReal) :=
  fold_max_bot_coe_real s hs f

/-- Taking the maximum with `-∞` once more (a clamp from below by `-∞`) changes nothing. -/
theorem max_bot_fold_max_bot_coe_real {ι : Type*} (s : Finset ι) (hs : s.Nonempty) (f : ι → ℝ) :
    ∃ M : ℝ, max (⊥ : EReal) (s.fold max (⊥ : EReal) (fun j => ((f j : ℝ) : EReal))) = ((M : ℝ) : EReal) := by
  obtain ⟨M, hM⟩ := fold_max_bot_coe_real s hs f
  exact ⟨M, by rw [hM, max_bot_left]⟩

end Idealize.ShloMosaic.Ideal

end
-- ==== Proof.LibLogSumExpShift.lean ====
/-
  The log-sum-exp shift on the extended reals.

  A numerically careful softmax subtracts a row's maximum `M` before exponentiating; the plain one does not. Over exact
  arithmetic the two agree: for real logits `x j` over a finite nonempty index set and any real `M`,

      log (∑ j, exp (x j - M)) = log (∑ j, exp (x j)) - M,

  because `exp (x - M) = exp x / exp M`, the common factor leaves the sum, the sum of exponentials is positive, and the
  logarithm of a quotient of positive numbers is the difference of the logarithms. Hence the log-softmax read at a label
  `l`, `(x l - M) - log (∑ j, exp (x j - M))`, is `x l - log (∑ j, exp (x j))` whatever `M` is, and the cross-entropy
  row `log (∑ j, exp (x j)) - x l` is its negation. The statements are on the extended reals with the exact exponential
  and logarithm there; every hypothesis is that the logits (and the shift) are real numbers, which is what keeps the
  sums away from the infinities, where subtraction does not cancel.
-/
import Idealize.ShloMosaic.PureOps.Ideal

noncomputable section

namespace Idealize.ShloMosaic.Ideal

open scoped BigOperators

/-- A finite sum of real numbers, each read as an extended real, is the real sum read as an extended real. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum of the exponentials of real logits is the real sum of the real exponentials. -/
theorem sum_exp_coe {ι : Type*} [Fintype ι] (x : ι → ℝ) :
    (∑ j, Ideal.exp ((x j : ℝ) : EReal)) = ((∑ j, Real.exp (x j) : ℝ) : EReal) := by
  simp only [Ideal.exp_coe]
  exact coe_finset_sum Finset.univ fun j => Real.exp (x j)

/-- Over a nonempty index set that sum is positive, so its logarithm is the real logarithm. -/
theorem log_sum_exp_coe {ι : Type*} [Fintype ι] [Nonempty ι] (x : ι → ℝ) :
    Ideal.log (∑ j, Ideal.exp ((x j : ℝ) : EReal)) = ((Real.log (∑ j, Real.exp (x j)) : ℝ) : EReal) := by
  have hpos : 0 < ∑ j, Real.exp (x j) := Finset.sum_pos (fun j _ => Real.exp_pos (x j)) Finset.univ_nonempty
  rw [sum_exp_coe, Ideal.log_coe, if_neg (not_le.mpr hpos)]

/-- THE SHIFT: subtracting a real `M` from every logit subtracts `M` from the log-sum-exp. -/
theorem log_sum_exp_sub {ι : Type*} [Fintype ι] [Nonempty ι] (x : ι → ℝ) (M : ℝ) :
    Ideal.log (∑ j, Ideal.exp (((x j : ℝ) : EReal) - ((M : ℝ) : EReal)))
      = Ideal.log (∑ j, Ideal.exp ((x j : ℝ) : EReal)) - ((M : ℝ) : EReal) := by
  have hpos : 0 < ∑ j, Real.exp (x j) := Finset.sum_pos (fun j _ => Real.exp_pos (x j)) Finset.univ_nonempty
  have hsum : (∑ j, Real.exp (x j - M)) = (∑ j, Real.exp (x j)) / Real.exp M := by
    rw [Finset.sum_div]; exact Finset.sum_congr rfl fun j _ => Real.exp_sub (x j) M
  have hreal : Real.log (∑ j, Real.exp (x j - M)) = Real.log (∑ j, Real.exp (x j)) - M := by
    rw [hsum, Real.log_div hpos.ne' (Real.exp_pos M).ne', Real.log_exp]
  simp only [← EReal.coe_sub]
  rw [log_sum_exp_coe (fun j => x j - M), log_sum_exp_coe x, hreal, EReal.coe_sub]

/-- The log-softmax of shifted logits read at a label does not depend on the shift. -/
theorem log_softmax_shift {ι : Type*} [Fintype ι] [Nonempty ι] (x : ι → ℝ) (M : ℝ) (l : ι) :
    (((x l : ℝ) : EReal) - ((M : ℝ) : EReal)) - Ideal.log (∑ j, Ideal.exp (((x j : ℝ) : EReal) - ((M : ℝ) : EReal)))
      = ((x l : ℝ) : EReal) - Ideal.log (∑ j, Ideal.exp ((x j : ℝ) : EReal)) := by
  rw [log_sum_exp_sub, log_sum_exp_coe x]
  simp only [← EReal.coe_sub]
  congr 1; ring

/-- The cross-entropy row `log (∑ exp x) - x l` is the negated log-softmax of the shifted logits at `l`. -/
theorem cross_entropy_row_eq_neg_log_softmax {ι : Type*} [Fintype ι] [Nonempty ι] (x : ι → ℝ) (M : ℝ) (l : ι) :
    Ideal.log (∑ j, Ideal.exp ((x j : ℝ) : EReal)) - ((x l : ℝ) : EReal)
      = -((((x l : ℝ) : EReal) - ((M : ℝ) : EReal)) - Ideal.log (∑ j, Ideal.exp (((x j : ℝ) : EReal) - ((M : ℝ) : EReal)))) := by
  rw [log_softmax_shift, log_sum_exp_coe x]
  simp only [← EReal.coe_sub, ← EReal.coe_neg]
  congr 1; ring

end Idealize.ShloMosaic.Ideal

end
-- ==== Proof.StepReal.lean ====
/-
  One block step of the running softmax, on real data.

  If the block's summed encoder rows and the cached decoder rows are real numbers, so are the block's scores
  s_k = Σ_h dec_h · enc_{k,h} and their maximum (a fold of max from −∞ over 128 reals). Let the old running maximum be
  any extended real M (a real at a later block, −∞ at the first), and suppose max (M, block maximum) is the real m'
  and exp (M − m') is the real a (exp (m − m') at a later block; 0 at the first, since exp (−∞) = 0). Then, for real old
  denominator l and numerator acc, the step leaves the reals
      m',   a · l + Σ_k exp (s_k − m'),   a · acc + Σ_k exp (s_k − m') · enc_{k,h}.
-/
import proofs.«114297_j5428838662814_2_alg».proof.Proof.Step
import proofs.«114297_j5428838662814_2_alg».proof.Proof.LibRowMaxReal
import proofs.«114297_j5428838662814_2_alg».proof.Proof.LibLogSumExpShift

noncomputable section

namespace Cert.KernelIdeal.StepReal

open Cert.KernelIdeal Cert.KernelIdeal.Gen Cert.KernelIdeal.Step Idealize.ShloMosaic Idealize.ShloMosaic.ValueIdx

/-- The block's score of key `k` for query row `q` of batch entry `b`. -/
def sB (encB : Fin 16 → Fin 128 → Fin 256 → ℝ) (dB : Fin 16 → Fin 256 → Fin 256 → ℝ) (b : Fin 16) (q : Fin 256) (k : Fin 128) : ℝ :=
  ∑ h : Fin 256, dB b q h * encB b k h

/-- The block's maximum score, as a real number. -/
def bm (encB : Fin 16 → Fin 128 → Fin 256 → ℝ) (dB : Fin 16 → Fin 256 → Fin 256 → ℝ) (b : Fin 16) (q : Fin 256) : ℝ :=
  ((Finset.univ : Finset (Fin 128)).fold max (⊥ : EReal) (fun k => ((sB encB dB b q k : ℝ) : EReal))).toReal

/-- The fold of max from −∞ over the block's 128 real scores is that real. -/
theorem fold_eq_bm (encB : Fin 16 → Fin 128 → Fin 256 → ℝ) (dB : Fin 16 → Fin 256 → Fin 256 → ℝ) (b : Fin 16) (q : Fin 256) :
    (Finset.univ : Finset (Fin 128)).fold max (⊥ : EReal) (fun k => ((sB encB dB b q k : ℝ) : EReal))
      = ((bm encB dB b q : ℝ) : EReal) := by
  obtain ⟨M, hM⟩ := Ideal.fold_max_bot_coe_real (Finset.univ : Finset (Fin 128)) Finset.univ_nonempty (sB encB dB b q)
  unfold bm
  rw [hM, EReal.toReal_coe]

/-- The step on real data (see the header). -/
theorem step_coe (x0 : Vec Ideal S128x16x512 .f32) (dq : Vec Ideal S16x256x256 .bf16) (mv lv : Vec Ideal S16x256 .f32)
    (av : Vec Ideal S16x256x256 .f32)
    (encB : Fin 16 → Fin 128 → Fin 256 → ℝ) (dB : Fin 16 → Fin 256 → Fin 256 → ℝ)
    (hE : ∀ b k h, k0_pay8 (F := Ideal) x0 (ix3 b k h) = ((encB b k h : ℝ) : EReal))
    (hD : ∀ b q h, dq (ix3 b q h) = ((dB b q h : ℝ) : EReal))
    (b : Fin 16) (q : Fin 256) (m' a : ℝ)
    (hM : max (mv (ix2 b q)) ((bm encB dB b q : ℝ) : EReal) = ((m' : ℝ) : EReal))
    (hA : Ideal.exp (mv (ix2 b q) - ((m' : ℝ) : EReal)) = ((a : ℝ) : EReal)) :
    (∀ u : Fin 1, k0_pay11 (F := Ideal) x0 dq mv (ix3 b q u) = ((m' : ℝ) : EReal))
    ∧ (∀ lr : ℝ, lv (ix2 b q) = ((lr : ℝ) : EReal) →
        k0_pay14 (F := Ideal) x0 dq mv lv (ix2 b q)
          = ((a * lr + ∑ k : Fin 128, Real.exp (sB encB dB b q k - m') : ℝ) : EReal))
    ∧ (∀ (h : Fin 256) (ar : ℝ), av (ix3 b q h) = ((ar : ℝ) : EReal) →
        k0_pay15 (F := Ideal) x0 dq mv av (ix3 b q h)
          = ((a * ar + ∑ k : Fin 128, Real.exp (sB encB dB b q k - m') * encB b k h : ℝ) : EReal)) := by
  have hsc : ∀ k : Fin 128, k0_pay9 (F := Ideal) x0 dq (ix3 b q k) = ((sB encB dB b q k : ℝ) : EReal) := fun k => by
    rw [pay9_at]
    simp only [hE, hD, ← EReal.coe_mul]
    exact Ideal.coe_finset_sum _ _
  have h11 : ∀ u : Fin 1, k0_pay11 (F := Ideal) x0 dq mv (ix3 b q u) = ((m' : ℝ) : EReal) := fun u => by
    rw [pay11_at]
    simp only [hsc]
    rw [show FloatOps.ofBits (F := Ideal) .f32 0xFF800000#32 = (⊥ : EReal) from ofBits_ninf, fold_eq_bm, hM]
  have h12 : k0_pay12 (F := Ideal) x0 dq mv (ix3 b q (0 : Fin 1)) = ((a : ℝ) : EReal) := by
    rw [pay12_at, h11, hA]
  have h13 : ∀ k : Fin 128, k0_pay13 (F := Ideal) x0 dq mv (ix3 b q k) = ((Real.exp (sB encB dB b q k - m') : ℝ) : EReal) := fun k => by
    rw [pay13_at, hsc, h11, ← EReal.coe_sub, Ideal.exp_coe]
  refine ⟨h11, fun lr hl => ?_, fun h ar ha => ?_⟩
  · rw [pay14_at, h12, hl]
    simp only [h13]
    rw [Ideal.coe_finset_sum, ← EReal.coe_mul, ← EReal.coe_add]
  · rw [pay15_at, h12, ha]
    simp only [h13, hE, ← EReal.coe_mul]
    rw [Ideal.coe_finset_sum, ← EReal.coe_add]

end Cert.KernelIdeal.StepReal

end
-- ==== Proof.Softmax.lean ====
/-
  The blockwise ("online") softmax-weighted average, over the real numbers.

  For scores `sc s` and values `v s` (s = 0, 1, 2, …) and a shift `μ`, write
    Z n μ = ∑_{s<n} exp (sc s − μ)          (the partition sum of the first n scores)
    W n μ = ∑_{s<n} exp (sc s − μ) · v s    (the weighted sum of the first n values).
  Changing the shift rescales both by the same factor, exp (μ − μ') · Z n μ = Z n μ', so a running pair
  (Z, W) kept at a running shift can take in k more scores at a new shift (`Z_step`, `W_step`), and the
  quotient W / Z does not depend on the shift at all: it is the average of the values with the softmax
  weights exp (sc s − μ') / Z n μ', whatever μ' is (`quotient_eq`).
-/
import Mathlib

noncomputable section

namespace Cert.OnlineSoftmax

open Finset

/-- The partition sum of the first `n` scores, shifted by `μ`. -/
def Z (sc : ℕ → ℝ) (n : ℕ) (μ : ℝ) : ℝ := ∑ s ∈ range n, Real.exp (sc s - μ)

/-- The sum of the first `n` values weighted by the shifted exponentials of their scores. -/
def W (sc v : ℕ → ℝ) (n : ℕ) (μ : ℝ) : ℝ := ∑ s ∈ range n, Real.exp (sc s - μ) * v s

theorem Z_zero (sc : ℕ → ℝ) (μ : ℝ) : Z sc 0 μ = 0 := by simp [Z]

theorem W_zero (sc v : ℕ → ℝ) (μ : ℝ) : W sc v 0 μ = 0 := by simp [W]

/-- Moving the shift from `μ` to `μ'` multiplies the partition sum by `exp (μ − μ')`. -/
theorem Z_shift (sc : ℕ → ℝ) (n : ℕ) (μ μ' : ℝ) : Real.exp (μ - μ') * Z sc n μ = Z sc n μ' := by
  unfold Z
  rw [Finset.mul_sum]
  refine Finset.sum_congr rfl fun s _ => ?_
  rw [← Real.exp_add]
  congr 1
  ring

/-- Moving the shift from `μ` to `μ'` multiplies the weighted sum by the same factor. -/
theorem W_shift (sc v : ℕ → ℝ) (n : ℕ) (μ μ' : ℝ) : Real.exp (μ - μ') * W sc v n μ = W sc v n μ' := by
  unfold W
  rw [Finset.mul_sum]
  refine Finset.sum_congr rfl fun s _ => ?_
  rw [← mul_assoc, ← Real.exp_add]
  congr 2
  ring

/-- One step of the running partition sum: rescale to the new shift, add the next `k` scores. -/
theorem Z_step (sc : ℕ → ℝ) (n k : ℕ) (μ μ' : ℝ) :
    Real.exp (μ - μ') * Z sc n μ + ∑ j ∈ range k, Real.exp (sc (n + j) - μ') = Z sc (n + k) μ' := by
  rw [Z_shift]
  unfold Z
  rw [Finset.sum_range_add]

/-- One step of the running weighted sum. -/
theorem W_step (sc v : ℕ → ℝ) (n k : ℕ) (μ μ' : ℝ) :
    Real.exp (μ - μ') * W sc v n μ + ∑ j ∈ range k, Real.exp (sc (n + j) - μ') * v (n + j)
      = W sc v (n + k) μ' := by
  rw [W_shift]
  unfold W
  rw [Finset.sum_range_add]

theorem Z_pos (sc : ℕ → ℝ) (n : ℕ) (hn : 0 < n) (μ : ℝ) : 0 < Z sc n μ :=
  Finset.sum_pos (fun _ _ => Real.exp_pos _) (Finset.nonempty_range_iff.mpr hn.ne')

/-- The quotient of the two sums is the softmax-weighted average of the values, at ANY shift. -/
theorem quotient_eq (sc v : ℕ → ℝ) (n : ℕ) (hn : 0 < n) (μ μ' : ℝ) :
    W sc v n μ / Z sc n μ = ∑ s ∈ range n, Real.exp (sc s - μ') / Z sc n μ' * v s := by
  rw [← W_shift sc v n μ' μ, ← Z_shift sc n μ' μ, mul_div_mul_left _ _ (Real.exp_pos _).ne']
  unfold W
  rw [Finset.sum_div]
  refine Finset.sum_congr rfl fun s _ => ?_
  ring

end Cert.OnlineSoftmax

end
-- ==== Proof.Spec.lean ====
/-
  What both programs compute, as one function of the two argument arrays.

  The arguments are `e : [2048, 16, 512]` (source positions × batch × two directions of 256 features) and
  `d : [2048, 16, 256]` (target positions × batch × 256 features). With
    enc b h s = e (s, b, h) + e (s, b, 256 + h)            (the two directions summed)
    score b t s = ∑_h d (t, b, h) · enc b h s                (the score of source s for target t)
  the result at (t, b, h) is the softmax-weighted average of the encoder rows,
    attn t b h = (∑_s exp (score b t s) · enc b h s) / (∑_s exp (score b t s)),
  over the 2048 source positions. The real numbers are read off the extended-real arrays by `toReal`; where the
  arrays are finite (the precondition) nothing is lost. Source positions are indexed by ℕ (out of range: 0) so that
  a sum over the first n of them is a sum over `Finset.range n`.
-/
import Idealize.ShloMosaic.PureOps.Ideal
import Idealize.ShloMosaic.Lib.ValueIdx
import proofs.«114297_j5428838662814_2_alg».proof.Proof.Softmax

noncomputable section

namespace Cert.Spec

open Idealize.ShloMosaic Idealize.ShloMosaic.ValueIdx Cert.OnlineSoftmax

abbrev SE : Shape := ⟨3, ![2048, 16, 512]⟩
abbrev SD : Shape := ⟨3, ![2048, 16, 256]⟩

/-- The summed encoder feature `h` of batch entry `b` at source position `s`, as a real number. -/
def encR (e : SE.Idx → EReal) (b : Fin 16) (h : Fin 256) (s : ℕ) : ℝ :=
  if hs : s < 2048 then
    (e (ix3 (⟨s, hs⟩ : Fin 2048) b (⟨h.val, by omega⟩ : Fin 512))).toReal
      + (e (ix3 (⟨s, hs⟩ : Fin 2048) b (⟨256 + h.val, by omega⟩ : Fin 512))).toReal
  else 0

/-- The decoder feature `h` of batch entry `b` at target position `t`, as a real number. -/
def decR (d : SD.Idx → EReal) (t : Fin 2048) (b : Fin 16) (h : Fin 256) : ℝ := (d (ix3 t b h)).toReal

/-- The score of source position `s` for target position `t` in batch entry `b`. -/
def scoreR (e : SE.Idx → EReal) (d : SD.Idx → EReal) (b : Fin 16) (t : Fin 2048) (s : ℕ) : ℝ :=
  ∑ h : Fin 256, decR d t b h * encR e b h s

/-- The attention output at target `t`, batch entry `b`, feature `h`. -/
def attn (e : SE.Idx → EReal) (d : SD.Idx → EReal) (t : Fin 2048) (b : Fin 16) (h : Fin 256) : ℝ :=
  W (scoreR e d b t) (encR e b h) 2048 0 / Z (scoreR e d b t) 2048 0

/-- The result array. -/
def G (e : SE.Idx → EReal) (d : SD.Idx → EReal) : SD.Idx → EReal :=
  fun i => ((attn e d (i 0) (i 1) (i 2) : ℝ) : EReal)

theorem G_ix3 (e : SE.Idx → EReal) (d : SD.Idx → EReal) (t : Fin 2048) (b : Fin 16) (h : Fin 256) :
    G e d (ix3 t b h) = ((attn e d t b h : ℝ) : EReal) := rfl

/-- An array all of whose entries are real numbers. -/
def IsFinite {s : Shape} (x : s.Idx → EReal) : Prop := ∀ i, x i = ((x i).toReal : EReal)

theorem encR_of_lt (e : SE.Idx → EReal) (b : Fin 16) (h : Fin 256) (s : ℕ) (hs : s < 2048) :
    encR e b h s = (e (ix3 (⟨s, hs⟩ : Fin 2048) b (⟨h.val, by omega⟩ : Fin 512))).toReal
      + (e (ix3 (⟨s, hs⟩ : Fin 2048) b (⟨256 + h.val, by omega⟩ : Fin 512))).toReal := dif_pos hs

/-- On a finite array the two directions' sum, on the extended reals, is the real `encR`. -/
theorem enc_coe (e : SE.Idx → EReal) (he : IsFinite e) (b : Fin 16) (h : Fin 256) (s : ℕ) (hs : s < 2048) :
    e (ix3 (⟨s, hs⟩ : Fin 2048) b (⟨h.val, by omega⟩ : Fin 512)) + e (ix3 (⟨s, hs⟩ : Fin 2048) b (⟨256 + h.val, by omega⟩ : Fin 512))
      = ((encR e b h s : ℝ) : EReal) := by
  rw [encR_of_lt e b h s hs, EReal.coe_add, ← he, ← he]

theorem dec_coe (d : SD.Idx → EReal) (hd : IsFinite d) (t : Fin 2048) (b : Fin 16) (h : Fin 256) :
    d (ix3 t b h) = ((decR d t b h : ℝ) : EReal) := hd _

end Cert.Spec

end
-- ==== Proof.Blocks.lean ====
/-
  The three windows' blocks at a grid point, as real data.

  The grid is 8 query blocks × 16 key blocks; point t is query block t / 16 and key block t % 16. The encoder window's block
  at t holds source positions 128 · (t % 16) + k, the decoder and output windows' blocks target positions 256 · (t / 16) + q
  (the index maps, decided over the 128 points). On finite arrays the body's summed encoder block and the decoder block
  are therefore the real numbers `encR` / `decR` of the specification at those positions, and the block's scores are
  `scoreR` at them. Last, taking in one block of 128 keys on the real partition and weighted sums.
-/
import proofs.«114297_j5428838662814_2_alg».proof.Proof.Gen.KernelIdeal.Value
import proofs.«114297_j5428838662814_2_alg».proof.Proof.StepReal
import proofs.«114297_j5428838662814_2_alg».proof.Proof.Spec

set_option maxRecDepth 16384

noncomputable section

namespace Cert.KernelIdeal.Blocks

open Cert.KernelIdeal Cert.KernelIdeal.Gen Cert.KernelIdeal.Step Cert.KernelIdeal.StepReal
open Idealize.ShloMosaic Idealize.ShloMosaic.TcCoe Idealize.ShloMosaic.ValueIdx Idealize.SL.Sem Cert.Spec Cert.OnlineSoftmax
open Idealize.ShloMosaic.Pipeline (Dat)

variable (m : (ℓ : Loc nD τ sig) → Buf (Elt Ideal) ℓ)

/-- The encoder array on device `c`. -/
abbrev eA (c : Dev nD) : SE.Idx → EReal := m ((c : Thread nD τ).loc main_arg0)
/-- The decoder array on device `c`. -/
abbrev dA (c : Dev nD) : SD.Idx → EReal := m ((c : Thread nD τ).loc main_arg1)

/-- Where the three windows' blocks sit at grid point `t` (query block t / 16, key block t % 16), decided over the grid. -/
theorem idx_facts : ∀ t : Fin cfg0.N,
    win0_0.index t (0 : Fin 3) = t.val % 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- The encoder block at point `t` holds source positions 128 · (t % 16) + k. -/
theorem iblk0_at (c : Dev nD) (t : Fin cfg0.N) (k : Fin 128) (b : Fin 16) (h : Fin 512) (hs : 128 * (t.val % 16) + k.val < 2048) :
    (iblk m c 0 t : Vec Ideal S128x16x512 .f32) (ix3 k b h) = eA m c (ix3 (⟨128 * (t.val % 16) + k.val, hs⟩ : Fin 2048) b h) := by
  obtain ⟨e0, e1, e2, -⟩ := idx_facts t
  unfold iblk
  rw [View.read_apply]
  show V m c main_arg0 (((cfg0.win 0).blk t).view.emb (ix3 k b h)) = V m c main_arg0 _
  refine congrArg _ (funext fun a => Fin.ext ?_)
  match a with
  | ⟨0, _⟩ => show win0_0.index t (0 : Fin 3) * 128 + 1 * k.val = 128 * (t.val % 16) + k.val; rw [e0]; omega
  | ⟨1, _⟩ => show win0_0.index t (1 : Fin 3) * 16 + 1 * b.val = b.val; rw [e1]; omega
  | ⟨2, _⟩ => show win0_0.index t (2 : Fin 3) * 512 + 1 * h.val = h.val; rw [e2]; omega

/-- The decoder block at point `t` holds target positions 256 · (t / 16) + q. -/
theorem iblk1_at (c : Dev nD) (t : Fin cfg0.N) (q : Fin 256) (b : Fin 16) (h : Fin 256) (hs : 256 * (t.val / 16) + q.val < 2048) :
    (iblk m c 1 t : Vec Ideal S256x16x256 .f32) (ix3 q b h) = dA m c (ix3 (⟨256 * (t.val / 16) + q.val, hs⟩ : Fin 2048) b h) := by
  obtain ⟨-, -, -, e0, e1, e2, -⟩ := idx_facts t
  unfold iblk
  rw [View.read_apply]
  show V m c main_arg1 (((cfg0.win 1).blk t).view.emb (ix3 q b h)) = V m c main_arg1 _
  refine congrArg _ (funext fun a => Fin.ext ?_)
  match a with
  | ⟨0, _⟩ => show win0_1.index t (0 : Fin 3) * 256 + 1 * q.val = 256 * (t.val / 16) + q.val; rw [e0]; omega
  | ⟨1, _⟩ => show win0_1.index t (1 : Fin 3) * 16 + 1 * b.val = b.val; rw [e1]; omega
  | ⟨2, _⟩ => show win0_1.index t (2 : Fin 3) * 256 + 1 * h.val = h.val; rw [e2]; omega

/-! ## The blocks at a point, as real data -/

/-- The target position of query row `q` at grid point `n` (query block n / 16). -/
def tq (n : ℕ) (q : Fin 256) : Fin 2048 := ⟨256 * (n / 16 % 8) + q.val, by have := q.isLt; omega⟩

/-- The summed encoder rows of the key block at point `t`. -/
def encBlk (c : Dev nD) (t : Fin cfg0.N) : Fin 16 → Fin 128 → Fin 256 → ℝ :=
  fun b k h => encR (eA m c) b h (128 * (t.val % 16) + k.val)

/-- The decoder rows of the query block at point `t`. -/
def decBlk (c : Dev nD) (t : Fin cfg0.N) : Fin 16 → Fin 256 → Fin 256 → ℝ :=
  fun b q h => decR (dA m c) (tq t.val q) b h

/-- The block's scores are the scores of source positions 128 · (t % 16) + k for the block's target positions. -/
theorem sB_blk (c : Dev nD) (t : Fin cfg0.N) (b : Fin 16) (q : Fin 256) (k : Fin 128) :
    sB (encBlk m c t) (decBlk m c t) b q k = scoreR (eA m c) (dA m c) b (tq t.val q) (128 * (t.val % 16) + k.val) := rfl

/-- On a finite encoder array the body's summed encoder block is that real data. -/
theorem hE_blk (c : Dev nD) (he : IsFinite (eA m c)) (t : Fin cfg0.N) (b : Fin 16) (k : Fin 128) (h : Fin 256) :
    k0_pay8 (F := Ideal) (iblk m c 0 t) (ix3 b k h) = ((encBlk m c t b k h : ℝ) : EReal) := by
  have hs : 128 * (t.val % 16) + k.val < 2048 := by have := k.isLt; omega
  rw [pay8_at, iblk0_at m c t k b _ hs, iblk0_at m c t k b _ hs]
  rw [show (⟨0 + h.val, by have := h.isLt; omega⟩ : Fin 512) = ⟨h.val, by have := h.isLt; omega⟩ from Fin.ext (Nat.zero_add _)]
  exact enc_coe (eA m c) he b h _ hs

/-- On a finite decoder array the decoder block is that real data. -/
theorem hD_blk (c : Dev nD) (hd : IsFinite (dA m c)) (t : Fin cfg0.N) (q : Fin 256) (b : Fin 16) (h : Fin 256) :
    (iblk m c 1 t : Vec Ideal S256x16x256 .f32) (ix3 q b h) = ((decBlk m c t b q h : ℝ) : EReal) := by
  have hN : t.val < 128 := lt_of_lt_of_eq t.isLt N_0
  have hs : 256 * (t.val / 16) + q.val < 2048 := by have := q.isLt; omega
  rw [iblk1_at m c t q b h hs]
  have e : (⟨256 * (t.val / 16) + q.val, hs⟩ : Fin 2048) = tq t.val q := Fin.ext (by show 256 * (t.val / 16) + q.val = 256 * (t.val / 16 % 8) + q.val; omega)
  rw [e]
  exact dec_coe (dA m c) hd _ b h

/-! ## Taking in one block of 128 keys, on the real sums -/

theorem glueZ (sc : ℕ → ℝ) (n : ℕ) (μ μ' : ℝ) :
    Real.exp (μ - μ') * Z sc n μ + ∑ k : Fin 128, Real.exp (sc (n + k.val) - μ') = Z sc (n + 128) μ' := by
  rw [← Z_step sc n 128 μ μ', Finset.sum_range]

theorem glueW (sc v : ℕ → ℝ) (n : ℕ) (μ μ' : ℝ) :
    Real.exp (μ - μ') * W sc v n μ + ∑ k : Fin 128, Real.exp (sc (n + k.val) - μ') * v (n + k.val) = W sc v (n + 128) μ' := by
  rw [← W_step sc v n 128 μ μ', Finset.sum_range]

theorem glueZ0 (sc : ℕ → ℝ) (μ' : ℝ) :
    (0 : ℝ) * 0 + ∑ k : Fin 128, Real.exp (sc (0 + k.val) - μ') = Z sc (0 + 128) μ' := by
  have h := glueZ sc 0 μ' μ'
  rw [Z_zero, mul_zero] at h
  rw [zero_mul]
  exact h

theorem glueW0 (sc v : ℕ → ℝ) (μ' : ℝ) :
    (0 : ℝ) * 0 + ∑ k : Fin 128, Real.exp (sc (0 + k.val) - μ') * v (0 + k.val) = W sc v (0 + 128) μ' := by
  have h := glueW sc v 0 μ' μ'
  rw [W_zero, mul_zero] at h
  rw [zero_mul]
  exact h

end Cert.KernelIdeal.Blocks

end
-- ==== Proof.Pieces.lean ====
/-
  What each of the kernel body's three control cases leaves behind, as terms over the body's named pure values.

  The body keeps, per batch entry and query row, a running maximum m, a running denominator l and a running numerator
  acc (one row of 256 features), and a cached copy of the decoder block. Per key block it forms the scores, the new
  maximum m' = max (m, row maxima), the factor exp (m − m'), and
      l' = exp (m − m') · l + Σ_k exp (score_k − m'),   acc' = exp (m − m') · acc + Σ_k exp (score_k − m') · enc_k.
  The FIRST block of a row starts from m = −∞, l = 0, acc = 0 and caches the decoder block; a MIDDLE block updates the
  three; the LAST block updates them and writes acc' / l', re-laid target-major, to the output block.
  Each lemma reads the stores a case's run found (the last store to a buffer covers it whole) back as that value;
  they hold at any float instance.
-/
import proofs.«114297_j5428838662814_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first block of a row leaves the maximum of minus infinity and this block's row maxima. -/
theorem sout0_A_0_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : cond0_0 i) (hc1 : ¬cond0_1 i) (x0 : Vec F S128x16x512 .f32) (x1 : Vec F S256x16x256 .f32) :
    sout0_A_0 c i arg2 harg2 arg3 harg3 arg4 harg4 arg5 harg5 arg6 harg6 arg7 harg7 arg8 harg8 hc0 hc1 x0 x1 = k0_pay2 (k0_pay11 x0 (k0_pay7 x1) k0_pay4) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S16x256) hz2]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- The first block leaves the denominator started from zero. -/
theorem sout0_A_1_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : cond0_0 i) (hc1 : ¬cond0_1 i) (x0 : Vec F S128x16x512 .f32) (x1 : Vec F S256x16x256 .f32) :
    sout0_A_1 c i arg2 harg2 arg3 harg3 arg4 harg4 arg5 harg5 arg6 harg6 arg7 harg7 arg8 harg8 hc0 hc1 x0 x1 = k0_pay14 x0 (k0_pay7 x1) k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S16x256) hz2]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- The first block leaves the numerator started from zero. -/
theorem sout0_A_2_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : cond0_0 i) (hc1 : ¬cond0_1 i) (x0 : Vec F S128x16x512 .f32) (x1 : Vec F S256x16x256 .f32) :
    sout0_A_2 c i arg2 harg2 arg3 harg3 arg4 harg4 arg5 harg5 arg6 harg6 arg7 harg7 arg8 harg8 hc0 hc1 x0 x1 = k0_pay1 (k0_pay15 x0 (k0_pay7 x1) k0_pay4 k0_pay6) := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S16x256x256) hz3]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- The first block caches the decoder block, batch-major. -/
theorem sout0_A_3_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : cond0_0 i) (hc1 : ¬cond0_1 i) (x0 : Vec F S128x16x512 .f32) (x1 : Vec F S256x16x256 .f32) :
    sout0_A_3 c i arg2 harg2 arg3 harg3 arg4 harg4 arg5 harg5 arg6 harg6 arg7 harg7 arg8 harg8 hc0 hc1 x0 x1 = k0_pay7 x1 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- A middle block leaves the new maximum: the old one against this block's row maxima. -/
theorem sout0_B_0_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : ¬cond0_1 i) (x0 : Vec F S128x16x512 .f32) (x1 : Vec F S256x16x256 .f32) (xs0 : Vec F S16x256 .f32) (xs1 : Vec F S16x256 .f32) (xs2 : Vec F S16x256x256 .f32) (xs3 : Vec F S16x256x256 .bf16) :
    sout0_B_0 c i arg2 harg2 arg3 harg3 arg4 harg4 arg5 harg5 arg6 harg6 arg7 harg7 arg8 harg8 hc0 hc1 x0 x1 xs0 xs1 xs2 xs3 = k0_pay2 (k0_pay11 x0 xs3 xs0) := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- A middle block leaves the old denominator rescaled plus this block's sum of exponentials. -/
theorem sout0_B_1_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : ¬cond0_1 i) (x0 : Vec F S128x16x512 .f32) (x1 : Vec F S256x16x256 .f32) (xs0 : Vec F S16x256 .f32) (xs1 : Vec F S16x256 .f32) (xs2 : Vec F S16x256x256 .f32) (xs3 : Vec F S16x256x256 .bf16) :
    sout0_B_1 c i arg2 harg2 arg3 harg3 arg4 harg4 arg5 harg5 arg6 harg6 arg7 harg7 arg8 harg8 hc0 hc1 x0 x1 xs0 xs1 xs2 xs3 = k0_pay14 x0 xs3 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- A middle block leaves the old numerator rescaled plus this block's weighted encoder rows. -/
theorem sout0_B_2_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : ¬cond0_1 i) (x0 : Vec F S128x16x512 .f32) (x1 : Vec F S256x16x256 .f32) (xs0 : Vec F S16x256 .f32) (xs1 : Vec F S16x256 .f32) (xs2 : Vec F S16x256x256 .f32) (xs3 : Vec F S16x256x256 .bf16) :
    sout0_B_2 c i arg2 harg2 arg3 harg3 arg4 harg4 arg5 harg5 arg6 harg6 arg7 harg7 arg8 harg8 hc0 hc1 x0 x1 xs0 xs1 xs2 xs3 = k0_pay1 (k0_pay15 x0 xs3 xs0 xs2) := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- The last block updates the running maximum as a middle block does. -/
theorem sout0_C_0_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : cond0_1 i) (x0 : Vec F S128x16x512 .f32) (x1 : Vec F S256x16x256 .f32) (xs0 : Vec F S16x256 .f32) (xs1 : Vec F S16x256 .f32) (xs2 : Vec F S16x256x256 .f32) (xs3 : Vec F S16x256x256 .bf16) :
    sout0_C_0 c i arg2 harg2 arg3 harg3 arg4 harg4 arg5 harg5 arg6 harg6 arg7 harg7 arg8 harg8 hc0 hc1 x0 x1 xs0 xs1 xs2 xs3 = k0_pay2 (k0_pay11 x0 xs3 xs0) := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- The last block updates the running denominator as a middle block does. -/
theorem sout0_C_1_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : cond0_1 i) (x0 : Vec F S128x16x512 .f32) (x1 : Vec F S256x16x256 .f32) (xs0 : Vec F S16x256 .f32) (xs1 : Vec F S16x256 .f32) (xs2 : Vec F S16x256x256 .f32) (xs3 : Vec F S16x256x256 .bf16) :
    sout0_C_1 c i arg2 harg2 arg3 harg3 arg4 harg4 arg5 harg5 arg6 harg6 arg7 harg7 arg8 harg8 hc0 hc1 x0 x1 xs0 xs1 xs2 xs3 = k0_pay14 x0 xs3 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- The last block updates the running numerator as a middle block does. -/
theorem sout0_C_2_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : cond0_1 i) (x0 : Vec F S128x16x512 .f32) (x1 : Vec F S256x16x256 .f32) (xs0 : Vec F S16x256 .f32) (xs1 : Vec F S16x256 .f32) (xs2 : Vec F S16x256x256 .f32) (xs3 : Vec F S16x256x256 .bf16) :
    sout0_C_2 c i arg2 harg2 arg3 harg3 arg4 harg4 arg5 harg5 arg6 harg6 arg7 harg7 arg8 harg8 hc0 hc1 x0 x1 xs0 xs1 xs2 xs3 = k0_pay1 (k0_pay15 x0 xs3 xs0 xs2) := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

/-- The last block writes the output block: the updated numerator over the updated denominator, re-laid target-major. -/
theorem out0_C_2_eq (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : cond0_1 i) (x0 : Vec F S128x16x512 .f32) (x1 : Vec F S256x16x256 .f32) (xs0 : Vec F S16x256 .f32) (xs1 : Vec F S16x256 .f32) (xs2 : Vec F S16x256x256 .f32) (xs3 : Vec F S16x256x256 .bf16) :
    out0_C_2 c i arg2 harg2 arg3 harg3 arg4 harg4 arg5 harg5 arg6 harg6 arg7 harg7 arg8 harg8 hc0 hc1 x0 x1 xs0 xs1 xs2 xs3 = k0_pay3 (k0_pay14 x0 xs3 xs0 xs1) (k0_pay1 (k0_pay15 x0 xs3 xs0 xs2)) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S16x256) hz2, View.ld_unit_zero (S := S16x256x256) hz3, View.ld_unit_zero (S := S128x16x512) hz3, View.ld_unit_zero (S := S256x16x256) hz3, View.readCov_unit_zero (S := S16x256) _ hz2, View.readCov_unit_zero (S := S16x256x256) _ hz3]

end Cert.KernelIdeal.Pieces

end
-- ==== Proof.Cases.lean ====
/-
  What each control case of the body leaves at a coordinate, on real data.

  A LATER block (middle or last), from a real running maximum mu, denominator l and numerator acc, leaves
      max (mu, block maximum),  exp (mu − m') · l + Σ_k exp (s_k − m'),  exp (mu − m') · acc + Σ_k exp (s_k − m') · enc_k;
  the last block also writes their quotient (the denominator being non-zero) to the output block. The FIRST block starts
  from −∞, 0 and 0: the maximum of −∞ and the block maximum is the block maximum, exp (−∞ − m') = 0, so it leaves the
  block maximum, 0 · 0 + Σ_k exp (s_k − m') and 0 · 0 + Σ_k exp (s_k − m') · enc_k, and the decoder block, cached.
-/
import proofs.«114297_j5428838662814_2_alg».proof.Proof.Pieces
import proofs.«114297_j5428838662814_2_alg».proof.Proof.StepReal

noncomputable section

namespace Cert.KernelIdeal.Cases

open Cert.KernelIdeal Cert.KernelIdeal.Gen Cert.KernelIdeal.Pieces Cert.KernelIdeal.Step Cert.KernelIdeal.StepReal
open Idealize.ShloMosaic Idealize.ShloMosaic.ValueIdx

theorem middle_block (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : ¬cond0_1 i)
    (x0 : Vec Ideal S128x16x512 .f32) (x1 : Vec Ideal S256x16x256 .f32) (xs0 : Vec Ideal S16x256 .f32) (xs1 : Vec Ideal S16x256 .f32) (xs2 : Vec Ideal S16x256x256 .f32) (xs3 : Vec Ideal S16x256x256 .bf16)
    (encB : Fin 16 → Fin 128 → Fin 256 → ℝ) (dB : Fin 16 → Fin 256 → Fin 256 → ℝ)
    (hE : ∀ b k h, k0_pay8 (F := Ideal) x0 (ix3 b k h) = ((encB b k h : ℝ) : EReal))
    (hD : ∀ b q h, xs3 (ix3 b q h) = ((dB b q h : ℝ) : EReal))
    (b : Fin 16) (q : Fin 256) (mu lr : ℝ) (hm : xs0 (ix2 b q) = ((mu : ℝ) : EReal)) (hl : xs1 (ix2 b q) = ((lr : ℝ) : EReal)) :
    sout0_B_0 c i arg2 harg2 arg3 harg3 arg4 harg4 arg5 harg5 arg6 harg6 arg7 harg7 arg8 harg8 hc0 hc1 x0 x1 xs0 xs1 xs2 xs3 (ix2 b q) = ((max mu (bm encB dB b q) : ℝ) : EReal)
    ∧ sout0_B_1 c i arg2 harg2 arg3 harg3 arg4 harg4 arg5 harg5 arg6 harg6 arg7 harg7 arg8 harg8 hc0 hc1 x0 x1 xs0 xs1 xs2 xs3 (ix2 b q)
        = ((Real.exp (mu - max mu (bm encB dB b q)) * lr + ∑ k : Fin 128, Real.exp (sB encB dB b q k - max mu (bm encB dB b q)) : ℝ) : EReal)
    ∧ (∀ (h : Fin 256) (ar : ℝ), xs2 (ix3 b q h) = ((ar : ℝ) : EReal) →
        sout0_B_2 c i arg2 harg2 arg3 harg3 arg4 harg4 arg5 harg5 arg6 harg6 arg7 harg7 arg8 harg8 hc0 hc1 x0 x1 xs0 xs1 xs2 xs3 (ix3 b q h)
          = ((Real.exp (mu - max mu (bm encB dB b q)) * ar + ∑ k : Fin 128, Real.exp (sB encB dB b q k - max mu (bm encB dB b q)) * encB b k h : ℝ) : EReal)) := by
  obtain ⟨h11, h14, h15⟩ := step_coe x0 xs3 xs0 xs1 xs2 encB dB hE hD b q (max mu (bm encB dB b q))
    (Real.exp (mu - max mu (bm encB dB b q)))
    (by rw [hm]; exact (EReal.coe_strictMono.monotone.map_max).symm)
    (by rw [hm, ← EReal.coe_sub, Ideal.exp_coe])
  refine ⟨?_, ?_, fun h ar ha => ?_⟩
  · rw [sout0_B_0_eq, pay2_at]; exact h11 0
  · rw [sout0_B_1_eq]; exact h14 lr hl
  · rw [sout0_B_2_eq, pay1_eq]; exact h15 h ar ha

theorem last_block (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : ¬cond0_0 i) (hc1 : cond0_1 i)
    (x0 : Vec Ideal S128x16x512 .f32) (x1 : Vec Ideal S256x16x256 .f32) (xs0 : Vec Ideal S16x256 .f32) (xs1 : Vec Ideal S16x256 .f32) (xs2 : Vec Ideal S16x256x256 .f32) (xs3 : Vec Ideal S16x256x256 .bf16)
    (encB : Fin 16 → Fin 128 → Fin 256 → ℝ) (dB : Fin 16 → Fin 256 → Fin 256 → ℝ)
    (hE : ∀ b k h, k0_pay8 (F := Ideal) x0 (ix3 b k h) = ((encB b k h : ℝ) : EReal))
    (hD : ∀ b q h, xs3 (ix3 b q h) = ((dB b q h : ℝ) : EReal))
    (b : Fin 16) (q : Fin 256) (mu lr : ℝ) (hm : xs0 (ix2 b q) = ((mu : ℝ) : EReal)) (hl : xs1 (ix2 b q) = ((lr : ℝ) : EReal)) :
    sout0_C_0 c i arg2 harg2 arg3 harg3 arg4 harg4 arg5 harg5 arg6 harg6 arg7 harg7 arg8 harg8 hc0 hc1 x0 x1 xs0 xs1 xs2 xs3 (ix2 b q) = ((max mu (bm encB dB b q) : ℝ) : EReal)
    ∧ sout0_C_1 c i arg2 harg2 arg3 harg3 arg4 harg4 arg5 harg5 arg6 harg6 arg7 harg7 arg8 harg8 hc0 hc1 x0 x1 xs0 xs1 xs2 xs3 (ix2 b q)
        = ((Real.exp (mu - max mu (bm encB dB b q)) * lr + ∑ k : Fin 128, Real.exp (sB encB dB b q k - max mu (bm encB dB b q)) : ℝ) : EReal)
    ∧ (∀ (h : Fin 256) (ar : ℝ), xs2 (ix3 b q h) = ((ar : ℝ) : EReal) →
        sout0_C_2 c i arg2 harg2 arg3 harg3 arg4 harg4 arg5 harg5 arg6 harg6 arg7 harg7 arg8 harg8 hc0 hc1 x0 x1 xs0 xs1 xs2 xs3 (ix3 b q h)
          = ((Real.exp (mu - max mu (bm encB dB b q)) * ar + ∑ k : Fin 128, Real.exp (sB encB dB b q k - max mu (bm encB dB b q)) * encB b k h : ℝ) : EReal)
          ∧ (Real.exp (mu - max mu (bm encB dB b q)) * lr + ∑ k : Fin 128, Real.exp (sB encB dB b q k - max mu (bm encB dB b q)) ≠ 0 →
            out0_C_2 c i arg2 harg2 arg3 harg3 arg4 harg4 arg5 harg5 arg6 harg6 arg7 harg7 arg8 harg8 hc0 hc1 x0 x1 xs0 xs1 xs2 xs3 (ix3 q b h)
              = (((Real.exp (mu - max mu (bm encB dB b q)) * ar + ∑ k : Fin 128, Real.exp (sB encB dB b q k - max mu (bm encB dB b q)) * encB b k h)
                  / (Real.exp (mu - max mu (bm encB dB b q)) * lr + ∑ k : Fin 128, Real.exp (sB encB dB b q k - max mu (bm encB dB b q))) : ℝ) : EReal))) := by
  obtain ⟨h11, h14, h15⟩ := step_coe x0 xs3 xs0 xs1 xs2 encB dB hE hD b q (max mu (bm encB dB b q))
    (Real.exp (mu - max mu (bm encB dB b q)))
    (by rw [hm]; exact (EReal.coe_strictMono.monotone.map_max).symm)
    (by rw [hm, ← EReal.coe_sub, Ideal.exp_coe])
  refine ⟨?_, ?_, fun h ar ha => ?_⟩
  · rw [sout0_C_0_eq, pay2_at]; exact h11 0
  · rw [sout0_C_1_eq]; exact h14 lr hl
  · refine ⟨?_, fun hne => ?_⟩
    · rw [sout0_C_2_eq, pay1_eq]; exact h15 h ar ha
    · rw [out0_C_2_eq, pay3_at, pay1_eq, h15 h ar ha, h14 lr hl, Ideal.div_coe hne, ← EReal.coe_mul, mul_one_div]

theorem first_block (c : Dev nD) (i : grid0.Coords) (arg2 : Memref sig .tc .vmem S128x16x512 .f32) (harg2 : arg2.IsWhole) (arg3 : Memref sig .tc .vmem S256x16x256 .f32) (harg3 : arg3.IsWhole) (arg4 : Memref sig .tc .vmem S256x16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256x256 .f32) (harg7 : arg7.IsWhole) (arg8 : Memref sig .tc .vmem S16x256x256 .bf16) (harg8 : arg8.IsWhole) (hc0 : cond0_0 i) (hc1 : ¬cond0_1 i)
    (x0 : Vec Ideal S128x16x512 .f32) (x1 : Vec Ideal S256x16x256 .f32)
    (encB : Fin 16 → Fin 128 → Fin 256 → ℝ) (dB : Fin 16 → Fin 256 → Fin 256 → ℝ)
    (hE : ∀ b k h, k0_pay8 (F := Ideal) x0 (ix3 b k h) = ((encB b k h : ℝ) : EReal))
    (hD1 : ∀ q b h, x1 (ix3 q b h) = ((dB b q h : ℝ) : EReal))
    (b : Fin 16) (q : Fin 256) :
    sout0_A_0 c i arg2 harg2 arg3 harg3 arg4 harg4 arg5 harg5 arg6 harg6 arg7 harg7 arg8 harg8 hc0 hc1 x0 x1 (ix2 b q) = ((bm encB dB b q : ℝ) : EReal)
    ∧ sout0_A_1 c i arg2 harg2 arg3 harg3 arg4 harg4 arg5 harg5 arg6 harg6 arg7 harg7 arg8 harg8 hc0 hc1 x0 x1 (ix2 b q)
        = ((0 * 0 + ∑ k : Fin 128, Real.exp (sB encB dB b q k - bm encB dB b q) : ℝ) : EReal)
    ∧ (∀ h : Fin 256, sout0_A_2 c i arg2 harg2 arg3 harg3 arg4 harg4 arg5 harg5 arg6 harg6 arg7 harg7 arg8 harg8 hc0 hc1 x0 x1 (ix3 b q h)
        = ((0 * 0 + ∑ k : Fin 128, Real.exp (sB encB dB b q k - bm encB dB b q) * encB b k h : ℝ) : EReal))
    ∧ (∀ h : Fin 256, sout0_A_3 c i arg2 harg2 arg3 harg3 arg4 harg4 arg5 harg5 arg6 harg6 arg7 harg7 arg8 harg8 hc0 hc1 x0 x1 (ix3 b q h) = ((dB b q h : ℝ) : EReal)) := by
  have hD : ∀ b q h, k0_pay7 (F := Ideal) x1 (ix3 b q h) = ((dB b q h : ℝ) : EReal) := fun b q h => by
    rw [pay7_at]; exact hD1 q b h
  have hmv : k0_pay4 (F := Ideal) (ix2 b q) = (⊥ : EReal) := (pay4_at b q).trans ofBits_ninf
  have hlv : k0_pay5 (F := Ideal) (ix2 b q) = ((0 : ℝ) : EReal) :=
    (pay5_at b q).trans (Ideal.ofBits_zero_f32.trans EReal.coe_zero.symm)
  have hav : ∀ h : Fin 256, k0_pay6 (F := Ideal) (ix3 b q h) = ((0 : ℝ) : EReal) := fun h =>
    (pay6_at b q h).trans (Ideal.ofBits_zero_f32.trans EReal.coe_zero.symm)
  obtain ⟨h11, h14, h15⟩ := step_coe x0 (k0_pay7 (F := Ideal) x1) (k0_pay4 (F := Ideal)) (k0_pay5 (F := Ideal)) (k0_pay6 (F := Ideal))
    encB dB hE hD b q (bm encB dB b q) 0
    (by rw [hmv]; exact max_bot_left _)
    (by rw [hmv, EReal.bot_sub, Ideal.exp_bot, EReal.coe_zero])
  refine ⟨?_, ?_, fun h => ?_, fun h => ?_⟩
  · rw [sout0_A_0_eq, pay2_at]; exact h11 0
  · rw [sout0_A_1_eq]; exact h14 0 hlv
  · rw [sout0_A_2_eq, pay1_eq]; exact h15 h 0 (hav h)
  · rw [sout0_A_3_eq]; exact hD b q h

end Cert.KernelIdeal.Cases

end
-- ==== Proof.Inv.lean ====
/-
  The running softmax across the 16 key blocks of a query row.

  INVARIANT after grid point n (query block n / 16, key blocks 0 … n % 16 taken in), on finite arrays: for some real
  shift mu per batch entry and query row, the running maximum is mu, the running denominator is
  Z = Σ_{s < 128 (n % 16 + 1)} exp (score_s − mu), the running numerator is W = Σ_s exp (score_s − mu) · enc_s, and the
  cache holds the query block's decoder rows. The first block of a row establishes it from −∞, 0, 0; a later block
  keeps it, with the new shift max (mu, block maximum): exp (mu − mu') rescales both sums to the new shift and the
  block's 128 terms are added. That mu is the largest score so far is true but never needed. At the last block
  (n % 16 = 15) all 2048 source positions are in, and the quotient W / Z written to the output block is the
  specification's attention value, a quotient that does not depend on the shift.
-/
import proofs.«114297_j5428838662814_2_alg».proof.Proof.Blocks
import proofs.«114297_j5428838662814_2_alg».proof.Proof.Cases

set_option maxRecDepth 16384

noncomputable section

namespace Cert.KernelIdeal.Inv

open Cert.KernelIdeal Cert.KernelIdeal.Gen Cert.KernelIdeal.Step Cert.KernelIdeal.StepReal Cert.KernelIdeal.Blocks
open Idealize.ShloMosaic Idealize.ShloMosaic.TcCoe Idealize.ShloMosaic.ValueIdx Idealize.SL.Sem Cert.Spec Cert.OnlineSoftmax
open Idealize.ShloMosaic.Pipeline (Dat)

variable (m : (ℓ : Loc nD τ sig) → Buf (Elt Ideal) ℓ)
/-! ## The invariant -/

/-- After grid point `n` (query block n / 16, key blocks 0 … n % 16 taken in): for SOME real shift mu per row, the running
    maximum scratch holds mu, the denominator the partition sum of the first 128 · (n % 16 + 1) scores at shift mu, the
    numerator the matching weighted sum of encoder rows, and the cache the query block's decoder rows. -/
def Inv (c : Dev nD) (n : ℕ) (hn : n < cfg0.N) : Prop :=
  ∃ mu : Fin 16 → Fin 256 → ℝ,
    (∀ (b : Fin 16) (q : Fin 256), (outsAt0 m c n hn).2.1 (ix2 b q) = ((mu b q : ℝ) : EReal))
    ∧ (∀ (b : Fin 16) (q : Fin 256), (outsAt0 m c n hn).2.2.1 (ix2 b q)
        = ((Z (scoreR (eA m c) (dA m c) b (tq n q)) (128 * (n % 16 + 1)) (mu b q) : ℝ) : EReal))
    ∧ (∀ (b : Fin 16) (q : Fin 256) (h : Fin 256), (outsAt0 m c n hn).2.2.2.1 (ix3 b q h)
        = ((W (scoreR (eA m c) (dA m c) b (tq n q)) (encR (eA m c) b h) (128 * (n % 16 + 1)) (mu b q) : ℝ) : EReal))
    ∧ (∀ (b : Fin 16) (q : Fin 256) (h : Fin 256), (outsAt0 m c n hn).2.2.2.2 (ix3 b q h)
        = ((decR (dA m c) (tq n q) b h : ℝ) : EReal))

set_option maxHeartbeats 4000000 in
/-- The first key block of a query row establishes the invariant. -/
theorem inv_first (c : Dev nD) (he : IsFinite (eA m c)) (hd : IsFinite (dA m c)) (t : Fin cfg0.N)
    (h0 : t.val % 16 = 0) (h1 : ¬t.val % 16 = 15) : Inv m c t.val t.isLt := by
  have key := fun (b : Fin 16) (q : Fin 256) => Cases.first_block c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _)
    ((hcond0_0 t).mpr h0) (fun h => h1 ((hcond0_1 t).mp h)) (iblk m c 0 t) (iblk m c 1 t)
    (encBlk m c t) (decBlk m c t) (hE_blk m c he t) (hD_blk m c hd t) b q
  have hA := outsAt0_A m c t h0 h1
  have c0 := congrArg (fun p => p.2.1) hA
  have c1 := congrArg (fun p => p.2.2.1) hA
  have c2 := congrArg (fun p => p.2.2.2.1) hA
  have c3 := congrArg (fun p => p.2.2.2.2) hA
  have e128 : 128 * (t.val % 16 + 1) = 0 + 128 := by omega
  have erZ : ∀ (b : Fin 16) (q : Fin 256), (0 : ℝ) * 0 + ∑ k : Fin 128, Real.exp (sB (encBlk m c t) (decBlk m c t) b q k - (bm (encBlk m c t) (decBlk m c t) b q))
      = Z (scoreR (eA m c) (dA m c) b (tq t.val q)) (128 * (t.val % 16 + 1)) (bm (encBlk m c t) (decBlk m c t) b q) := fun b q => by
    rw [e128]
    simp only [sB_blk, h0]
    exact glueZ0 (scoreR (eA m c) (dA m c) b (tq t.val q)) (bm (encBlk m c t) (decBlk m c t) b q)
  have erW : ∀ (b : Fin 16) (q : Fin 256) (h : Fin 256), (0 : ℝ) * 0 + ∑ k : Fin 128, Real.exp (sB (encBlk m c t) (decBlk m c t) b q k - (bm (encBlk m c t) (decBlk m c t) b q)) * encBlk m c t b k h
      = W (scoreR (eA m c) (dA m c) b (tq t.val q)) (encR (eA m c) b h) (128 * (t.val % 16 + 1)) (bm (encBlk m c t) (decBlk m c t) b q) := fun b q h => by
    rw [e128]
    simp only [sB_blk, encBlk, h0]
    exact glueW0 (scoreR (eA m c) (dA m c) b (tq t.val q)) (encR (eA m c) b h) (bm (encBlk m c t) (decBlk m c t) b q)
  exact ⟨fun b q => (bm (encBlk m c t) (decBlk m c t) b q),
    fun b q => (congrFun c0 (ix2 b q)).trans (key b q).1,
    fun b q => ((congrFun c1 (ix2 b q)).trans (key b q).2.1).trans (congrArg Real.toEReal (erZ b q)),
    fun b q h => ((congrFun c2 (ix3 b q h)).trans ((key b q).2.2.1 h)).trans (congrArg Real.toEReal (erW b q h)),
    fun b q h => (congrFun c3 (ix3 b q h)).trans ((key b q).2.2.2 h)⟩

set_option maxHeartbeats 4000000 in
/-- A middle key block carries the invariant from the point before. -/
theorem inv_middle (c : Dev nD) (he : IsFinite (eA m c)) (hd : IsFinite (dA m c)) (t : Fin cfg0.N)
    (h0 : ¬t.val % 16 = 0) (h1 : ¬t.val % 16 = 15)
    (ih : Inv m c (t.val - 1) (Nat.lt_of_le_of_lt (Nat.sub_le _ _) t.isLt)) : Inv m c t.val t.isLt := by
  have hN : t.val < 128 := lt_of_lt_of_eq t.isLt N_0
  obtain ⟨mu, hm, hl, ha, hdq⟩ := ih
  have etq : ∀ q : Fin 256, tq (t.val - 1) q = tq t.val q := fun q =>
    Fin.ext (by show 256 * ((t.val - 1) / 16 % 8) + q.val = 256 * (t.val / 16 % 8) + q.val; omega)
  have eki : 128 * ((t.val - 1) % 16 + 1) = 128 * (t.val % 16) := by omega
  have e128 : 128 * (t.val % 16 + 1) = 128 * (t.val % 16) + 128 := by omega
  have hl' : ∀ (b : Fin 16) (q : Fin 256), (outsAt0 m c (t.val - 1) (Nat.lt_of_le_of_lt (Nat.sub_le _ _) t.isLt)).2.2.1 (ix2 b q) = (((Z (scoreR (eA m c) (dA m c) b (tq t.val q)) (128 * (t.val % 16)) (mu b q)) : ℝ) : EReal) := fun b q => by
    rw [hl b q, etq, eki]
  have ha' : ∀ (b : Fin 16) (q : Fin 256) (h : Fin 256), (outsAt0 m c (t.val - 1) (Nat.lt_of_le_of_lt (Nat.sub_le _ _) t.isLt)).2.2.2.1 (ix3 b q h) = (((W (scoreR (eA m c) (dA m c) b (tq t.val q)) (encR (eA m c) b h) (128 * (t.val % 16)) (mu b q)) : ℝ) : EReal) := fun b q h => by
    rw [ha b q h, etq, eki]
  have hD : ∀ (b : Fin 16) (q : Fin 256) (h : Fin 256), (outsAt0 m c (t.val - 1) (Nat.lt_of_le_of_lt (Nat.sub_le _ _) t.isLt)).2.2.2.2 (ix3 b q h) = ((decBlk m c t b q h : ℝ) : EReal) := fun b q h => by
    rw [hdq b q h, etq]; rfl
  have key := fun (b : Fin 16) (q : Fin 256) => Cases.middle_block c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    (encBlk m c t) (decBlk m c t) (hE_blk m c he t) hD b q (mu b q) (Z (scoreR (eA m c) (dA m c) b (tq t.val q)) (128 * (t.val % 16)) (mu b q)) (hm b q) (hl' b q)
  have hK := outsAt0_B m c t h0 h1
  have c0 := congrArg (fun p => p.2.1) hK
  have c1 := congrArg (fun p => p.2.2.1) hK
  have c2 := congrArg (fun p => p.2.2.2.1) hK
  have c3 := congrArg (fun p => p.2.2.2.2) hK
  have erZ : ∀ (b : Fin 16) (q : Fin 256), Real.exp (mu b q - (max (mu b q) (bm (encBlk m c t) (decBlk m c t) b q))) * (Z (scoreR (eA m c) (dA m c) b (tq t.val q)) (128 * (t.val % 16)) (mu b q)) + ∑ k : Fin 128, Real.exp (sB (encBlk m c t) (decBlk m c t) b q k - (max (mu b q) (bm (encBlk m c t) (decBlk m c t) b q)))
      = Z (scoreR (eA m c) (dA m c) b (tq t.val q)) (128 * (t.val % 16 + 1)) (max (mu b q) (bm (encBlk m c t) (decBlk m c t) b q)) := fun b q => by
    rw [e128]
    simp only [sB_blk]
    exact glueZ (scoreR (eA m c) (dA m c) b (tq t.val q)) (128 * (t.val % 16)) (mu b q) (max (mu b q) (bm (encBlk m c t) (decBlk m c t) b q))
  have erW : ∀ (b : Fin 16) (q : Fin 256) (h : Fin 256), Real.exp (mu b q - (max (mu b q) (bm (encBlk m c t) (decBlk m c t) b q))) * (W (scoreR (eA m c) (dA m c) b (tq t.val q)) (encR (eA m c) b h) (128 * (t.val % 16)) (mu b q)) + ∑ k : Fin 128, Real.exp (sB (encBlk m c t) (decBlk m c t) b q k - (max (mu b q) (bm (encBlk m c t) (decBlk m c t) b q))) * encBlk m c t b k h
      = W (scoreR (eA m c) (dA m c) b (tq t.val q)) (encR (eA m c) b h) (128 * (t.val % 16 + 1)) (max (mu b q) (bm (encBlk m c t) (decBlk m c t) b q)) := fun b q h => by
    rw [e128]
    simp only [sB_blk, encBlk]
    exact glueW (scoreR (eA m c) (dA m c) b (tq t.val q)) (encR (eA m c) b h) (128 * (t.val % 16)) (mu b q) (max (mu b q) (bm (encBlk m c t) (decBlk m c t) b q))
  exact ⟨fun b q => (max (mu b q) (bm (encBlk m c t) (decBlk m c t) b q)),
    fun b q => (congrFun c0 (ix2 b q)).trans (key b q).1,
    fun b q => ((congrFun c1 (ix2 b q)).trans (key b q).2.1).trans (congrArg Real.toEReal (erZ b q)),
    fun b q h => ((congrFun c2 (ix3 b q h)).trans (((key b q).2.2 h (W (scoreR (eA m c) (dA m c) b (tq t.val q)) (encR (eA m c) b h) (128 * (t.val % 16)) (mu b q)) (ha' b q h)))).trans (congrArg Real.toEReal (erW b q h)),
    fun b q h => (congrFun c3 (ix3 b q h)).trans ((hdq b q h).trans (by rw [etq]))⟩

set_option maxHeartbeats 4000000 in
/-- A last key block carries the invariant from the point before. -/
theorem inv_last (c : Dev nD) (he : IsFinite (eA m c)) (hd : IsFinite (dA m c)) (t : Fin cfg0.N)
    (h0 : ¬t.val % 16 = 0) (h1 : t.val % 16 = 15)
    (ih : Inv m c (t.val - 1) (Nat.lt_of_le_of_lt (Nat.sub_le _ _) t.isLt)) : Inv m c t.val t.isLt := by
  have hN : t.val < 128 := lt_of_lt_of_eq t.isLt N_0
  obtain ⟨mu, hm, hl, ha, hdq⟩ := ih
  have etq : ∀ q : Fin 256, tq (t.val - 1) q = tq t.val q := fun q =>
    Fin.ext (by show 256 * ((t.val - 1) / 16 % 8) + q.val = 256 * (t.val / 16 % 8) + q.val; omega)
  have eki : 128 * ((t.val - 1) % 16 + 1) = 128 * (t.val % 16) := by omega
  have e128 : 128 * (t.val % 16 + 1) = 128 * (t.val % 16) + 128 := by omega
  have hl' : ∀ (b : Fin 16) (q : Fin 256), (outsAt0 m c (t.val - 1) (Nat.lt_of_le_of_lt (Nat.sub_le _ _) t.isLt)).2.2.1 (ix2 b q) = (((Z (scoreR (eA m c) (dA m c) b (tq t.val q)) (128 * (t.val % 16)) (mu b q)) : ℝ) : EReal) := fun b q => by
    rw [hl b q, etq, eki]
  have ha' : ∀ (b : Fin 16) (q : Fin 256) (h : Fin 256), (outsAt0 m c (t.val - 1) (Nat.lt_of_le_of_lt (Nat.sub_le _ _) t.isLt)).2.2.2.1 (ix3 b q h) = (((W (scoreR (eA m c) (dA m c) b (tq t.val q)) (encR (eA m c) b h) (128 * (t.val % 16)) (mu b q)) : ℝ) : EReal) := fun b q h => by
    rw [ha b q h, etq, eki]
  have hD : ∀ (b : Fin 16) (q : Fin 256) (h : Fin 256), (outsAt0 m c (t.val - 1) (Nat.lt_of_le_of_lt (Nat.sub_le _ _) t.isLt)).2.2.2.2 (ix3 b q h) = ((decBlk m c t b q h : ℝ) : EReal) := fun b q h => by
    rw [hdq b q h, etq]; rfl
  have key := fun (b : Fin 16) (q : Fin 256) => Cases.last_block c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    (encBlk m c t) (decBlk m c t) (hE_blk m c he t) hD b q (mu b q) (Z (scoreR (eA m c) (dA m c) b (tq t.val q)) (128 * (t.val % 16)) (mu b q)) (hm b q) (hl' b q)
  have hK := outsAt0_C m c t h0 h1
  have c0 := congrArg (fun p => p.2.1) hK
  have c1 := congrArg (fun p => p.2.2.1) hK
  have c2 := congrArg (fun p => p.2.2.2.1) hK
  have c3 := congrArg (fun p => p.2.2.2.2) hK
  have erZ : ∀ (b : Fin 16) (q : Fin 256), Real.exp (mu b q - (max (mu b q) (bm (encBlk m c t) (decBlk m c t) b q))) * (Z (scoreR (eA m c) (dA m c) b (tq t.val q)) (128 * (t.val % 16)) (mu b q)) + ∑ k : Fin 128, Real.exp (sB (encBlk m c t) (decBlk m c t) b q k - (max (mu b q) (bm (encBlk m c t) (decBlk m c t) b q)))
      = Z (scoreR (eA m c) (dA m c) b (tq t.val q)) (128 * (t.val % 16 + 1)) (max (mu b q) (bm (encBlk m c t) (decBlk m c t) b q)) := fun b q => by
    rw [e128]
    simp only [sB_blk]
    exact glueZ (scoreR (eA m c) (dA m c) b (tq t.val q)) (128 * (t.val % 16)) (mu b q) (max (mu b q) (bm (encBlk m c t) (decBlk m c t) b q))
  have erW : ∀ (b : Fin 16) (q : Fin 256) (h : Fin 256), Real.exp (mu b q - (max (mu b q) (bm (encBlk m c t) (decBlk m c t) b q))) * (W (scoreR (eA m c) (dA m c) b (tq t.val q)) (encR (eA m c) b h) (128 * (t.val % 16)) (mu b q)) + ∑ k : Fin 128, Real.exp (sB (encBlk m c t) (decBlk m c t) b q k - (max (mu b q) (bm (encBlk m c t) (decBlk m c t) b q))) * encBlk m c t b k h
      = W (scoreR (eA m c) (dA m c) b (tq t.val q)) (encR (eA m c) b h) (128 * (t.val % 16 + 1)) (max (mu b q) (bm (encBlk m c t) (decBlk m c t) b q)) := fun b q h => by
    rw [e128]
    simp only [sB_blk, encBlk]
    exact glueW (scoreR (eA m c) (dA m c) b (tq t.val q)) (encR (eA m c) b h) (128 * (t.val % 16)) (mu b q) (max (mu b q) (bm (encBlk m c t) (decBlk m c t) b q))
  exact ⟨fun b q => (max (mu b q) (bm (encBlk m c t) (decBlk m c t) b q)),
    fun b q => (congrFun c0 (ix2 b q)).trans (key b q).1,
    fun b q => ((congrFun c1 (ix2 b q)).trans (key b q).2.1).trans (congrArg Real.toEReal (erZ b q)),
    fun b q h => ((congrFun c2 (ix3 b q h)).trans (((key b q).2.2 h (W (scoreR (eA m c) (dA m c) b (tq t.val q)) (encR (eA m c) b h) (128 * (t.val % 16)) (mu b q)) (ha' b q h)).1)).trans (congrArg Real.toEReal (erW b q h)),
    fun b q h => (congrFun c3 (ix3 b q h)).trans ((hdq b q h).trans (by rw [etq]))⟩

/-- The invariant holds after every grid point: by induction on the point, the case read off the point's position in its
    row of 16 key blocks. -/
theorem inv_all (c : Dev nD) (he : IsFinite (eA m c)) (hd : IsFinite (dA m c)) :
    ∀ (n : ℕ) (hn : n < cfg0.N), Inv m c n hn := by
  intro n
  induction n with
  | zero => intro hn; exact inv_first m c he hd ⟨0, hn⟩ (by show 0 % 16 = 0; rfl) (by show ¬(0 % 16 = 15); decide)
  | succ n ih =>
    intro hn
    by_cases h0 : (n + 1) % 16 = 0
    · exact inv_first m c he hd ⟨n + 1, hn⟩ h0 (by show ¬(n + 1) % 16 = 15; omega)
    · by_cases h1 : (n + 1) % 16 = 15
      · exact inv_last m c he hd ⟨n + 1, hn⟩ h0 h1 (ih (Nat.lt_of_succ_lt hn))
      · exact inv_middle m c he hd ⟨n + 1, hn⟩ h0 h1 (ih (Nat.lt_of_succ_lt hn))

/-- The shift does not enter the quotient of the two sums. -/
theorem quotient_shift (sc v : ℕ → ℝ) (n : ℕ) (hn : 0 < n) (μ : ℝ) : W sc v n μ / Z sc n μ = W sc v n 0 / Z sc n 0 := by
  rw [quotient_eq sc v n hn μ 0, quotient_eq sc v n hn 0 0]

set_option maxHeartbeats 4000000 in
/-- At the last key block of a query row the body writes the attention value to the output block. -/
theorem out_last (c : Dev nD) (he : IsFinite (eA m c)) (hd : IsFinite (dA m c)) (t : Fin cfg0.N)
    (h0 : ¬t.val % 16 = 0) (h1 : t.val % 16 = 15)
    (ih : Inv m c (t.val - 1) (Nat.lt_of_le_of_lt (Nat.sub_le _ _) t.isLt)) (q : Fin 256) (b : Fin 16) (h : Fin 256) :
    (outsAt0 m c t.val t.isLt).1 (ix3 q b h) = ((attn (eA m c) (dA m c) (tq t.val q) b h : ℝ) : EReal) := by
  have hN : t.val < 128 := lt_of_lt_of_eq t.isLt N_0
  obtain ⟨mu, hm, hl, ha, hdq⟩ := ih
  have etq : ∀ q : Fin 256, tq (t.val - 1) q = tq t.val q := fun q =>
    Fin.ext (by show 256 * ((t.val - 1) / 16 % 8) + q.val = 256 * (t.val / 16 % 8) + q.val; omega)
  have eki : 128 * ((t.val - 1) % 16 + 1) = 128 * (t.val % 16) := by omega
  have e2048 : 128 * (t.val % 16) + 128 = 2048 := by omega
  have hl' : (outsAt0 m c (t.val - 1) (Nat.lt_of_le_of_lt (Nat.sub_le _ _) t.isLt)).2.2.1 (ix2 b q) = (((Z (scoreR (eA m c) (dA m c) b (tq t.val q)) (128 * (t.val % 16)) (mu b q)) : ℝ) : EReal) := by
    rw [hl b q, etq, eki]
  have ha' : (outsAt0 m c (t.val - 1) (Nat.lt_of_le_of_lt (Nat.sub_le _ _) t.isLt)).2.2.2.1 (ix3 b q h) = (((W (scoreR (eA m c) (dA m c) b (tq t.val q)) (encR (eA m c) b h) (128 * (t.val % 16)) (mu b q)) : ℝ) : EReal) := by
    rw [ha b q h, etq, eki]
  have hD : ∀ (b : Fin 16) (q : Fin 256) (h : Fin 256), (outsAt0 m c (t.val - 1) (Nat.lt_of_le_of_lt (Nat.sub_le _ _) t.isLt)).2.2.2.2 (ix3 b q h) = ((decBlk m c t b q h : ℝ) : EReal) := fun b q h => by
    rw [hdq b q h, etq]; rfl
  have key := Cases.last_block c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    (encBlk m c t) (decBlk m c t) (hE_blk m c he t) hD b q (mu b q) (Z (scoreR (eA m c) (dA m c) b (tq t.val q)) (128 * (t.val % 16)) (mu b q)) (hm b q) hl'
  have cO := congrArg (fun p => p.1) (outsAt0_C m c t h0 h1)
  have erZ : Real.exp (mu b q - (max (mu b q) (bm (encBlk m c t) (decBlk m c t) b q))) * (Z (scoreR (eA m c) (dA m c) b (tq t.val q)) (128 * (t.val % 16)) (mu b q)) + ∑ k : Fin 128, Real.exp (sB (encBlk m c t) (decBlk m c t) b q k - (max (mu b q) (bm (encBlk m c t) (decBlk m c t) b q)))
      = Z (scoreR (eA m c) (dA m c) b (tq t.val q)) 2048 (max (mu b q) (bm (encBlk m c t) (decBlk m c t) b q)) := by
    rw [← e2048]
    simp only [sB_blk]
    exact glueZ (scoreR (eA m c) (dA m c) b (tq t.val q)) (128 * (t.val % 16)) (mu b q) (max (mu b q) (bm (encBlk m c t) (decBlk m c t) b q))
  have erW : Real.exp (mu b q - (max (mu b q) (bm (encBlk m c t) (decBlk m c t) b q))) * (W (scoreR (eA m c) (dA m c) b (tq t.val q)) (encR (eA m c) b h) (128 * (t.val % 16)) (mu b q)) + ∑ k : Fin 128, Real.exp (sB (encBlk m c t) (decBlk m c t) b q k - (max (mu b q) (bm (encBlk m c t) (decBlk m c t) b q))) * encBlk m c t b k h
      = W (scoreR (eA m c) (dA m c) b (tq t.val q)) (encR (eA m c) b h) 2048 (max (mu b q) (bm (encBlk m c t) (decBlk m c t) b q)) := by
    rw [← e2048]
    simp only [sB_blk, encBlk]
    exact glueW (scoreR (eA m c) (dA m c) b (tq t.val q)) (encR (eA m c) b h) (128 * (t.val % 16)) (mu b q) (max (mu b q) (bm (encBlk m c t) (decBlk m c t) b q))
  have hne : Real.exp (mu b q - (max (mu b q) (bm (encBlk m c t) (decBlk m c t) b q))) * (Z (scoreR (eA m c) (dA m c) b (tq t.val q)) (128 * (t.val % 16)) (mu b q)) + ∑ k : Fin 128, Real.exp (sB (encBlk m c t) (decBlk m c t) b q k - (max (mu b q) (bm (encBlk m c t) (decBlk m c t) b q))) ≠ 0 := by
    rw [erZ]
    exact (Z_pos _ 2048 (by decide) _).ne'
  have erQ : (Real.exp (mu b q - (max (mu b q) (bm (encBlk m c t) (decBlk m c t) b q))) * (W (scoreR (eA m c) (dA m c) b (tq t.val q)) (encR (eA m c) b h) (128 * (t.val % 16)) (mu b q)) + ∑ k : Fin 128, Real.exp (sB (encBlk m c t) (decBlk m c t) b q k - (max (mu b q) (bm (encBlk m c t) (decBlk m c t) b q))) * encBlk m c t b k h)
        / (Real.exp (mu b q - (max (mu b q) (bm (encBlk m c t) (decBlk m c t) b q))) * (Z (scoreR (eA m c) (dA m c) b (tq t.val q)) (128 * (t.val % 16)) (mu b q)) + ∑ k : Fin 128, Real.exp (sB (encBlk m c t) (decBlk m c t) b q k - (max (mu b q) (bm (encBlk m c t) (decBlk m c t) b q))))
      = attn (eA m c) (dA m c) (tq t.val q) b h := by
    rw [erZ, erW]
    exact quotient_shift _ _ 2048 (by decide) _
  exact ((congrFun cO (ix3 q b h)).trans (((key.2.2 h (W (scoreR (eA m c) (dA m c) b (tq t.val q)) (encR (eA m c) b h) (128 * (t.val % 16)) (mu b q)) ha').2) hne)).trans (congrArg Real.toEReal erQ)

end Cert.KernelIdeal.Inv

end
-- ==== Proof.Final.lean ====
/-
  The kernel's result array.

  The output window is written back only at the last key block of each query row (points t with t % 16 = 15), and its block
  there is target rows 256 · (t / 16) … 256 · (t / 16) + 255 of the result. What such a point writes back is the
  attention value at those rows (the invariant's last step), so it is the block of the specification's result array G;
  the eight last points' blocks tile the 2048 target rows, so the whole result array ends at G. On finite arguments
  the run therefore ends with the result at G of the arguments, which are unchanged.
-/
import proofs.«114297_j5428838662814_2_alg».proof.Proof.Inv

set_option maxRecDepth 16384

noncomputable section

namespace Cert.KernelIdeal.Final

open Cert.KernelIdeal Cert.KernelIdeal.Gen Cert.KernelIdeal.Blocks Cert.KernelIdeal.Inv
open Idealize.ShloMosaic Idealize.ShloMosaic.TcCoe Idealize.ShloMosaic.ValueIdx Idealize.SL.Sem Cert.Spec
open Idealize.ShloMosaic.Pipeline (Dat)

variable (m : (ℓ : Loc nD τ sig) → Buf (Elt Ideal) ℓ) (ρ : Dev nD → PrngReg)

/-- The output block at point `t` holds target positions 256 · (t / 16) + q. -/
theorem emb2_at (t : Fin cfg0.N) (q : Fin 256) (b : Fin 16) (h : Fin 256) :
    ((cfg0.win 2).blk t).view.emb (ix3 q b h) = ix3 (tq t.val q) b h := by
  have hN : t.val < 128 := lt_of_lt_of_eq t.isLt N_0
  obtain ⟨-, -, -, -, -, -, e0, e1, e2⟩ := idx_facts t
  refine funext fun a => Fin.ext ?_
  match a with
  | ⟨0, _⟩ => show win0_2.index t (0 : Fin 3) * 256 + 1 * q.val = 256 * (t.val / 16 % 8) + q.val; rw [e0]; omega
  | ⟨1, _⟩ => show win0_2.index t (1 : Fin 3) * 16 + 1 * b.val = b.val; rw [e1]; omega
  | ⟨2, _⟩ => show win0_2.index t (2 : Fin 3) * 256 + 1 * h.val = h.val; rw [e2]; omega

/-- What a last point of a query row writes back is its block of the specification's result. -/
theorem flushed_eq (c : Dev nD) (he : IsFinite (eA m c)) (hd : IsFinite (dA m c)) (t : Fin cfg0.N)
    (hf : (cfg0.win 2).flush t = true) :
    (dats m 0 c).flushed 2 t = ((cfg0.win 2).blk t).view.read (Elt Ideal) (G (eA m c) (dA m c)) := by
  have h1 : t.val % 16 = 15 := (flush0_2 t).mp hf
  have h0 : ¬t.val % 16 = 0 := by omega
  rw [Cert.KernelIdeal.Value.flushed2 m c t]
  funext y
  obtain ⟨q, b, h, rfl⟩ : ∃ (q : Fin 256) (b : Fin 16) (h : Fin 256), y = ix3 q b h := ⟨y 0, y 1, y 2, eq_ix3 y⟩
  show (outsAt0 m c t.val t.isLt).1 (ix3 q b h) = G (eA m c) (dA m c) (((cfg0.win 2).blk t).view.emb (ix3 q b h))
  rw [emb2_at t q b h, G_ix3]
  exact out_last m c he hd t h0 h1 (inv_all m c he hd _ _) q b h

/-- Every index of the result array lies in the block of the last point of its query row. -/
theorem cover (i : S2048x16x256.Idx) :
    ∃ t : Fin cfg0.N, (cfg0.win 2).flush t = true ∧ i ∈ ((cfg0.win 2).blk t).view.set := by
  have hi0 : (i 0).val < 2048 := (i 0).isLt
  have hi1 : (i 1).val < 16 := (i 1).isLt
  have hi2 : (i 2).val < 256 := (i 2).isLt
  have hN : cfg0.N = 128 := N_0
  obtain ⟨t, et⟩ : ∃ t : Fin cfg0.N, t.val = 16 * ((i 0).val / 256) + 15 := ⟨⟨_, by rw [hN]; omega⟩, rfl⟩
  obtain ⟨-, -, -, -, -, -, e0, e1, e2⟩ := idx_facts t
  refine ⟨t, (flush0_2 t).mpr (by rw [et]; omega), ?_⟩
  show i ∈ ((View.whole main_v0).slice (win0_2.rect t)).set
  rw [View.set_slice_whole, Rect.mem_set_unit]
  intro a
  match a with
  | ⟨0, _⟩ =>
    show win0_2.index t (0 : Fin 3) * 256 ≤ (i 0).val ∧ (i 0).val < win0_2.index t (0 : Fin 3) * 256 + 256
    rw [e0, et]; omega
  | ⟨1, _⟩ =>
    show win0_2.index t (1 : Fin 3) * 16 ≤ (i 1).val ∧ (i 1).val < win0_2.index t (1 : Fin 3) * 16 + 16
    rw [e1]; omega
  | ⟨2, _⟩ =>
    show win0_2.index t (2 : Fin 3) * 256 ≤ (i 2).val ∧ (i 2).val < win0_2.index t (2 : Fin 3) * 256 + 256
    rw [e2]; omega

/-- The result array after the run. -/
theorem final (c : Dev nD) (he : IsFinite (eA m c)) (hd : IsFinite (dA m c)) :
    (dats m 0 c).arrAt 2 cfg0.N = G (eA m c) (dA m c) :=
  (dats m 0 c).arrAt_eq_of_cover 2 (G (eA m c) (dA m c)) (fun t hf => flushed_eq m c he hd t hf) cover

/-- The run, read: on finite arguments the result array ends at `G` of them, and they are unchanged. -/
theorem run (hfin : ∀ c : Dev nD, IsFinite (eA m c) ∧ IsFinite (dA m c)) :
    θ_run defs (onTc (τ := τ) (main (F := Ideal))) ⟨m, fun _ => 0, ρ⟩ fun r => ∀ c : Dev nD,
      r.2.mem ((c : Thread nD τ).loc main_v0) = G (eA m c) (dA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (Cert.KernelIdeal.Value.run_blocks m ρ)

end Cert.KernelIdeal.Final

end
-- ==== Proof.RefValue.lean ====
/-
  The reference program computes the specification.

  At (t, b, h) the reference's result is  ∑_s (exp (sc_s − M) / L) · enc_s  with enc_s = e (s, b, h) + e (s, b, 256 + h),
  sc_s = ∑_k enc (s, b, k) · d (t, b, k), M = max (−∞, max_s sc_s) and L = 0 + ∑_s exp (sc_s − M). On finite arguments
  every enc, d and sc_s is a real number, M is some real number (which one is not needed), L is the partition sum at
  shift M, positive, so the division is the real quotient; and the softmax-weighted average does not depend on the
  shift, so it is the one the specification writes at shift 0.
-/
import Idealize.ShloMosaic.PureOps.Ideal.Laws
import proofs.«114297_j5428838662814_2_alg».proof.Proof.Spec
import proofs.«114297_j5428838662814_2_alg».proof.Proof.LibRowMaxReal
import proofs.«114297_j5428838662814_2_alg».proof.Proof.LibLogSumExpShift
import proofs.«114297_j5428838662814_2_alg».proof.Proof.Gen.ReferenceIdeal.Read

noncomputable section

namespace Cert.RefValue

open Idealize.ShloMosaic Idealize.ShloMosaic.ValueIdx Cert.ReferenceIdeal Cert.ReferenceIdeal.Read Cert.Spec Cert.OnlineSoftmax

variable (e : SE.Idx → EReal) (d : SD.Idx → EReal)

/-! ## The summed encoder rows and the decoder rows -/

/-- The reshape to [2048, 16, 2, 256] read at direction 0: feature h of the first half. -/
theorem idx_enc_lo (b : Fin 16) (s : Fin 2048) (h : Fin 256) :
    idx_main_v0 (idx_main_v1 (idx_main_v2 (ix3 b s h)) 0) = ix3 s b (⟨h.val, by omega⟩ : Fin 512) := by
  funext a
  apply Fin.ext
  have hs := s.isLt; have hb := b.isLt; have hh := h.isLt
  match a with
  | ⟨0, _⟩ => show (((s.val * 16 + b.val) * 2 + 0) * 256 + h.val) / 8192 = s.val; omega
  | ⟨1, _⟩ => show (((s.val * 16 + b.val) * 2 + 0) * 256 + h.val) / 512 % 16 = b.val; omega
  | ⟨2, _⟩ => show (((s.val * 16 + b.val) * 2 + 0) * 256 + h.val) % 512 = h.val; omega

/-- The same at direction 1: feature 256 + h, the second half. -/
theorem idx_enc_hi (b : Fin 16) (s : Fin 2048) (h : Fin 256) :
    idx_main_v0 (idx_main_v1 (idx_main_v2 (ix3 b s h)) 1) = ix3 s b (⟨256 + h.val, by omega⟩ : Fin 512) := by
  funext a
  apply Fin.ext
  have hs := s.isLt; have hb := b.isLt; have hh := h.isLt
  match a with
  | ⟨0, _⟩ => show (((s.val * 16 + b.val) * 2 + 1) * 256 + h.val) / 8192 = s.val; omega
  | ⟨1, _⟩ => show (((s.val * 16 + b.val) * 2 + 1) * 256 + h.val) / 512 % 16 = b.val; omega
  | ⟨2, _⟩ => show (((s.val * 16 + b.val) * 2 + 1) * 256 + h.val) % 512 = 256 + h.val; omega

/-- The transposed sum of the two directions at (b, s, h) is the real enc. -/
theorem v2_apply (he : IsFinite e) (b : Fin 16) (s : Fin 2048) (h : Fin 256) :
    val_main_v2 (F := Ideal) e (ix3 b s h) = ((encR e b h s.val : ℝ) : EReal) := by
  rw [val_main_v2_apply, val_main_v1_apply, Fin.sum_univ_two, val_main_v0_apply, val_main_v0_apply,
    idx_enc_lo, idx_enc_hi, val_main_cst_apply]
  show Ideal.ofBits .f32 0x00000000#32 + (e _ + e _) = _
  rw [Ideal.ofBits_zero_f32, zero_add]
  exact enc_coe e he b h s.val s.isLt

theorem idx_dec (b : Fin 16) (t : Fin 2048) (h : Fin 256) : idx_main_v3 (ix3 b t h) = ix3 t b h := by
  funext a
  apply Fin.ext
  match a with
  | ⟨0, _⟩ => rfl
  | ⟨1, _⟩ => rfl
  | ⟨2, _⟩ => rfl

/-- The transposed decoder array at (b, t, h) is the real dec. -/
theorem v3_apply (hd : IsFinite d) (b : Fin 16) (t : Fin 2048) (h : Fin 256) :
    val_main_v3 (F := Ideal) d (ix3 b t h) = ((decR d t b h : ℝ) : EReal) := by
  rw [val_main_v3_apply, idx_dec]
  exact dec_coe d hd t b h

/-! ## The scores -/

/-- The first contraction at (b, s, t) is the real score of source s for target t. -/
theorem v4_apply (he : IsFinite e) (hd : IsFinite d) (b : Fin 16) (s t : Fin 2048) :
    val_main_v4 (F := Ideal) e d (ix3 b s t) = ((scoreR e d b t s.val : ℝ) : EReal) := by
  rw [val_main_v4_apply]
  have hl : ∀ k : Fin 256, lidx_main_v4 (ix3 b s t) k = ix3 b s k := fun k => funext fun a => Fin.ext (by
    match a with
    | ⟨0, _⟩ => rfl
    | ⟨1, _⟩ => rfl
    | ⟨2, _⟩ => rfl)
  have hr : ∀ k : Fin 256, ridx_main_v4 (ix3 b s t) k = ix3 b t k := fun k => funext fun a => Fin.ext (by
    match a with
    | ⟨0, _⟩ => rfl
    | ⟨1, _⟩ => rfl
    | ⟨2, _⟩ => rfl)
  simp only [hl, hr, v2_apply e he, v3_apply d hd, ← EReal.coe_mul]
  rw [Ideal.coe_finset_sum]
  unfold scoreR
  congr 1
  exact Finset.sum_congr rfl fun k _ => mul_comm _ _

/-! ## The row maximum is a real number -/

theorem reduces_d1 : S16x2048x2048.Reduces [1] S16x2048 := by decide

/-- The index (b, t) of the reduced array with source position k put back is (b, k, t). -/
theorem lift_d1 (b : Fin 16) (t : Fin 2048) (k : Fin (S16x2048x2048.size 1)) :
    reduces_d1.lift (ix2 b t) k = ix3 b (⟨k.val, k.isLt⟩ : Fin 2048) t := by
  funext c
  apply Fin.ext
  match c with
  | ⟨0, _⟩ => rfl
  | ⟨1, _⟩ => rfl
  | ⟨2, _⟩ => rfl

/-- The single-precision word of −∞ denotes −∞. -/
theorem ofBits_neg_inf : Ideal.ofBits .f32 0xFF800000#32 = (⊥ : EReal) := by simp [Ideal.ofBits, Ideal.ieee]

/-- The clamped maximum of the scores over the source positions, at (b, t), is some real number. -/
theorem v7_real (he : IsFinite e) (hd : IsFinite d) (b : Fin 16) (t : Fin 2048) :
    ∃ M : ℝ, val_main_v7 (F := Ideal) e d (ix2 b t) = ((M : ℝ) : EReal) := by
  rw [val_main_v7_apply, val_main_v6_apply, val_main_cst_1_apply]
  unfold val_main_v5
  rw [Host.reduce_eq_fold_single FloatOps.maximumf _ _ _ reduces_d1 _]
  have hf : (val_main_v4 (F := Ideal) e d ∘ reduces_d1.lift (ix2 b t))
      = fun k : Fin 2048 => ((scoreR e d b t k.val : ℝ) : EReal) := funext fun k => by
    show val_main_v4 (F := Ideal) e d (reduces_d1.lift (ix2 b t) k) = _
    rw [lift_d1]
    exact v4_apply e d he hd b ⟨k.val, k.isLt⟩ t
  rw [hf, val_main_cst_0_apply]
  show ∃ M : ℝ, max (Ideal.ofBits .f32 0xFF800000#32) (Finset.fold max (Ideal.ofBits .f32 0xFF800000#32) _ _)
      = ((M : ℝ) : EReal)
  rw [ofBits_neg_inf]
  exact Ideal.max_bot_fold_max_bot_coe_real Finset.univ Finset.univ_nonempty _

/-! ## The shifted exponentials, their sum, and the weights -/

theorem idx_bc_max (b : Fin 16) (s t : Fin 2048) : idx_main_v8 (idx_main_v9 (ix3 b s t)) = ix2 b t := by
  funext a
  apply Fin.ext
  match a with
  | ⟨0, _⟩ => rfl
  | ⟨1, _⟩ => rfl

theorem idx_bc_sum (b : Fin 16) (s t : Fin 2048) : idx_main_v13 (idx_main_v14 (ix3 b s t)) = ix2 b t := by
  funext a
  apply Fin.ext
  match a with
  | ⟨0, _⟩ => rfl
  | ⟨1, _⟩ => rfl

/-- The exponential of the shifted score at (b, s, t). -/
theorem v11_apply (he : IsFinite e) (hd : IsFinite d) (b : Fin 16) (s t : Fin 2048) (M : ℝ)
    (hM : val_main_v7 (F := Ideal) e d (ix2 b t) = ((M : ℝ) : EReal)) :
    val_main_v11 (F := Ideal) e d (ix3 b s t) = ((Real.exp (scoreR e d b t s.val - M) : ℝ) : EReal) := by
  rw [val_main_v11_apply, val_main_v10_apply, val_main_v9_apply, val_main_v8_apply, idx_bc_max, hM,
    v4_apply e d he hd]
  show Ideal.exp (((scoreR e d b t s.val : ℝ) : EReal) - ((M : ℝ) : EReal)) = _
  rw [← EReal.coe_sub, Ideal.exp_coe]

/-- The sum of the shifted exponentials over the source positions, at (b, t), is the partition sum at shift M. -/
theorem v12_apply (he : IsFinite e) (hd : IsFinite d) (b : Fin 16) (t : Fin 2048) (M : ℝ)
    (hM : val_main_v7 (F := Ideal) e d (ix2 b t) = ((M : ℝ) : EReal)) :
    val_main_v12 (F := Ideal) e d (ix2 b t) = ((Z (scoreR e d b t) 2048 M : ℝ) : EReal) := by
  rw [val_main_v12_apply, val_main_cst_2_apply]
  have hi : ∀ k : Fin 2048, idx_main_v12 (ix2 b t) k = ix3 b k t := fun k => funext fun a => Fin.ext (by
    match a with
    | ⟨0, _⟩ => rfl
    | ⟨1, _⟩ => rfl
    | ⟨2, _⟩ => rfl)
  simp only [hi, fun k => v11_apply e d he hd b k t M hM]
  show Ideal.ofBits .f32 0x00000000#32 + _ = _
  rw [Ideal.ofBits_zero_f32, zero_add, Ideal.coe_finset_sum]
  unfold Z
  rw [Finset.sum_range]

/-- The softmax weight of source s for target t: a real quotient, the partition sum being positive. -/
theorem v15_apply (he : IsFinite e) (hd : IsFinite d) (b : Fin 16) (s t : Fin 2048) (M : ℝ)
    (hM : val_main_v7 (F := Ideal) e d (ix2 b t) = ((M : ℝ) : EReal)) :
    val_main_v15 (F := Ideal) e d (ix3 b s t)
      = ((Real.exp (scoreR e d b t s.val - M) / Z (scoreR e d b t) 2048 M : ℝ) : EReal) := by
  rw [val_main_v15_apply, val_main_v14_apply, val_main_v13_apply, idx_bc_sum, v11_apply e d he hd b s t M hM,
    v12_apply e d he hd b t M hM]
  show Ideal.div _ _ = _
  rw [Ideal.div_coe (Z_pos _ 2048 (by norm_num) M).ne', ← EReal.coe_mul, mul_one_div]

/-! ## The weighted average -/

/-- The second contraction at (b, t, h) is the attention output. -/
theorem v16_apply (he : IsFinite e) (hd : IsFinite d) (b : Fin 16) (t : Fin 2048) (h : Fin 256) (M : ℝ)
    (hM : val_main_v7 (F := Ideal) e d (ix2 b t) = ((M : ℝ) : EReal)) :
    val_main_v16 (F := Ideal) e d (ix3 b t h) = ((attn e d t b h : ℝ) : EReal) := by
  rw [val_main_v16_apply]
  have hl : ∀ k : Fin 2048, lidx_main_v16 (ix3 b t h) k = ix3 b k t := fun k => funext fun a => Fin.ext (by
    match a with
    | ⟨0, _⟩ => rfl
    | ⟨1, _⟩ => rfl
    | ⟨2, _⟩ => rfl)
  have hr : ∀ k : Fin 2048, ridx_main_v16 (ix3 b t h) k = ix3 b k h := fun k => funext fun a => Fin.ext (by
    match a with
    | ⟨0, _⟩ => rfl
    | ⟨1, _⟩ => rfl
    | ⟨2, _⟩ => rfl)
  simp only [hl, hr, fun k => v15_apply e d he hd b k t M hM, v2_apply e he, ← EReal.coe_mul]
  rw [Ideal.coe_finset_sum]
  unfold attn
  rw [quotient_eq (scoreR e d b t) (encR e b h) 2048 (by norm_num) 0 M, Finset.sum_range]

theorem idx_out (t : Fin 2048) (b : Fin 16) (h : Fin 256) : idx_main_v17 (ix3 t b h) = ix3 b t h := by
  funext a
  apply Fin.ext
  match a with
  | ⟨0, _⟩ => rfl
  | ⟨1, _⟩ => rfl
  | ⟨2, _⟩ => rfl

/-- On finite arguments the reference's result array is the specification's. -/
theorem ref_eq_G (e : Cert.Spec.SE.Idx → EReal) (d : Cert.Spec.SD.Idx → EReal) (he : Cert.Spec.IsFinite e)
    (hd : Cert.Spec.IsFinite d) : Cert.ReferenceIdeal.Read.val_main_v17 (F := Ideal) e d = Cert.Spec.G e d := by
  funext i
  obtain ⟨t, b, h, rfl⟩ : ∃ (t : Fin 2048) (b : Fin 16) (h : Fin 256), i = ix3 t b h := ⟨i 0, i 1, i 2, eq_ix3 i⟩
  obtain ⟨M, hM⟩ := v7_real e d he hd b t
  rw [val_main_v17_apply, idx_out, v16_apply e d he hd b t h M hM, G_ix3]

end Cert.RefValue

end
-- ==== Proof.Finite.lean ====
/-
  From the precondition to finiteness. The precondition's function answers 1 exactly when every entry x of both
  argument arrays satisfies |x| < +∞; on the extended reals that says x is neither +∞ nor −∞, that is, x is a real.
-/
import Idealize.ShloMosaic.Lib.ReduceAll
import proofs.«114297_j5428838662814_2_alg».proof.Pre_finite_inputs
import proofs.«114297_j5428838662814_2_alg».proof.Proof.Gen.Pre_finite_inputs
import proofs.«114297_j5428838662814_2_alg».proof.Proof.Spec

noncomputable section

namespace Cert.Finite

open Idealize.ShloMosaic Idealize.ShloMosaic.ValueIdx

/-- The shape of a single number has one index. -/
instance : Subsingleton Cert.Pre_finite_inputs.S_.Idx := ⟨fun a b => funext fun d => d.elim0⟩

/-- The single-precision word of +∞ denotes +∞. -/
theorem ofBits_inf : Ideal.ofBits .f32 0x7F800000#32 = (⊤ : EReal) := by simp [Ideal.ofBits, Ideal.ieee]

/-- An extended real whose absolute value max x (−x) is below +∞ is a real number. -/
theorem real_of_abs_lt_top (x : EReal)
    (h : Ideal.cmp .olt (max x (-x)) (Ideal.ofBits .f32 0x7F800000#32) = 1#1) : x = ((x.toReal : ℝ) : EReal) := by
  rw [ofBits_inf] at h
  induction x using EReal.rec with
  | bot => simp [Ideal.cmp] at h
  | coe r => rfl
  | top => simp [Ideal.cmp] at h

theorem finite_of_pre [Cert.Pre_finite_inputs.Facts] (e : Cert.Spec.SE.Idx → EReal) (d : Cert.Spec.SD.Idx → EReal)
    (h : Cert.Pre_finite_inputs.fn (F := Ideal) e d = fun _ => 1#1) : Cert.Spec.IsFinite e ∧ Cert.Spec.IsFinite d := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt_top (e i) (Host.reduce_andi_all _ _ _ _ _ h1 i)
  · exact real_of_abs_lt_top (d i) (Host.reduce_andi_all _ _ _ _ _ h2 i)

end Cert.Finite

end
-- ==== Proof.lean ====
/-
  The claim: a blockwise ("flash") attention kernel against plain softmax attention, equal on the extended reals.

  Both programs take a bidirectional encoder output e : [2048, 16, 512] and a decoder output d : [2048, 16, 256]. With
  enc (s, b, h) = e (s, b, h) + e (s, b, 256 + h) and score (b, s, t) = Σ_h enc (s, b, h) · d (t, b, h), the reference
  returns, at (t, b, h), Σ_s softmax_s (score (b, ·, t)) · enc (s, b, h), computing the softmax with the row maximum
  subtracted. The kernel walks the 2048 source positions in 16 blocks of 128 per block of 256 target positions and keeps a
  running maximum m, denominator l and numerator acc: per block m' = max (m, block maximum), l' = exp (m − m') · l +
  Σ_k exp (score_k − m'), acc' likewise with the encoder rows as weights' values, and writes acc / l after the last block.

  Why they agree (on finite inputs, which the precondition gives): every score is a real number; after each block l and
  acc are the partition sum and the weighted sum of the scores seen so far AT THE SHIFT m (an induction over the blocks:
  exp (m − m') moves both sums to the new shift, exp (a) · exp (b) = exp (a + b)); and the quotient of the two sums is the
  softmax-weighted average whatever real shift is used — the reference's row maximum or the kernel's running one. The first
  block starts from m = −∞, where exp (−∞ − m') = 0 multiplies the zero accumulators. Finiteness is used: dividing a sum
  termwise and cancelling exponentials are laws of the reals, not of ±∞.

  The kernel's idealization rewrote nothing, so the preservation claim is trivial; the frames of the two kernels are the
  generated ones, and the reference's frame is its run with the result dropped.
-/
import proofs.«114297_j5428838662814_2_alg».proof.Defs
import proofs.«114297_j5428838662814_2_alg».proof.Proof.Gen.Kernel
import proofs.«114297_j5428838662814_2_alg».proof.Proof.Gen.Kernel.Skeleton
import proofs.«114297_j5428838662814_2_alg».proof.Proof.Gen.Kernel.Launch
import proofs.«114297_j5428838662814_2_alg».proof.Proof.Gen.Kernel.Points
import proofs.«114297_j5428838662814_2_alg».proof.Proof.Gen.Kernel.Frame
import proofs.«114297_j5428838662814_2_alg».proof.Proof.Gen.KernelIdeal
import proofs.«114297_j5428838662814_2_alg».proof.Proof.Gen.KernelIdeal.Skeleton
import proofs.«114297_j5428838662814_2_alg».proof.Proof.Gen.KernelIdeal.Launch
import proofs.«114297_j5428838662814_2_alg».proof.Proof.Gen.KernelIdeal.Points
import proofs.«114297_j5428838662814_2_alg».proof.Proof.Gen.KernelIdeal.Frame
import proofs.«114297_j5428838662814_2_alg».proof.Proof.Gen.ReferenceIdeal
import proofs.«114297_j5428838662814_2_alg».proof.Proof.Gen.Pre_finite_inputs
import proofs.«114297_j5428838662814_2_alg».proof.Proof.Gen.KernelIdeal.Value
import proofs.«114297_j5428838662814_2_alg».proof.Proof.Gen.ReferenceIdeal.Run
import proofs.«114297_j5428838662814_2_alg».proof.Proof.Gen.ReferenceIdeal.Read
import proofs.«114297_j5428838662814_2_alg».proof.Proof.Final
import proofs.«114297_j5428838662814_2_alg».proof.Proof.RefValue
import proofs.«114297_j5428838662814_2_alg».proof.Proof.Finite
import Idealize.ShloMosaic.Adequacy
import Idealize.ShloMosaic.Init

noncomputable section

namespace Cert.Proof

open Idealize.ShloMosaic Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite arguments both runs end with the result array at the same function `G` of the arguments. -/
theorem algebraic : Cert.algebraic_KernelIdeal_ReferenceIdeal := by
  intro m ρ m' ρ' hpre hagree
  have hfin : ∀ c : Dev Cert.KernelIdeal.nD,
      Cert.Spec.IsFinite (Cert.KernelIdeal.Blocks.eA m c) ∧ Cert.Spec.IsFinite (Cert.KernelIdeal.Blocks.dA m c) :=
    fun c => Cert.Finite.finite_of_pre _ _ (hpre c)
  refine ⟨fun c => Cert.Spec.G (Cert.KernelIdeal.Blocks.eA m c) (Cert.KernelIdeal.Blocks.dA m c),
    Cert.KernelIdeal.Final.run m ρ hfin, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v17 (F := Ideal) _ _ = _
  rw [(hagree c).1, (hagree c).2]
  exact Cert.RefValue.ref_eq_G _ _ (hfin c).1 (hfin c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
